-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x19 : Shape := ⟨2, ![2097152, 19]⟩
abbrev S32x64 : Shape := ⟨2, ![32, 64]⟩
abbrev S64x64 : Shape := ⟨2, ![64, 64]⟩
abbrev S64x3 : Shape := ⟨2, ![64, 3]⟩
abbrev S_ : Shape := ⟨0, ![]⟩

class Facts : Prop where
  bcast_S_S2097152x19 : S_.BroadcastsInDim S2097152x19 (![] : Fin 0 → Fin S2097152x19.rank)
  reducesTo_S2097152x19_S_d0_1 : S2097152x19.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64x64 : S_.BroadcastsInDim S64x64 (![] : Fin 0 → Fin S64x64.rank)
  reducesTo_S64x64_S_d0_1 : S64x64.ReducesTo [0, 1] S_
  bcast_S_S64x3 : S_.BroadcastsInDim S64x3 (![] : Fin 0 → Fin S64x3.rank)
  reducesTo_S64x3_S_d0_1 : S64x3.ReducesTo [0, 1] S_

variable [Facts]

def fn_part1 {F : FTy → Type} [FloatOps F] (main_v13 : IVec S_ 1) (main_v16 : IVec S64x3 1) : IVec S_ 1 :=
  let main_c_5 : IVec S_ 1 := constantI S_ 1 1#1
  let main_v17 : IVec S_ 1 := (fun x v => Host.reduce IntOp.andi x v reducesTo_S64x3_S_d0_1 h_S_) main_v16 main_c_5
  let main_v18 : IVec S_ 1 := andi main_v13 main_v17
  main_v18

def fn {F : FTy → Type} [FloatOps F] (main_arg0 : FVec F S2097152x19 .f32) (main_arg1 : FVec F S32x64 .f32) (main_arg2 : FVec F S64x64 .f32) (main_arg3 : FVec F S64x3 .f32) : IVec S_ 1 :=
  let main_v0 : FVec F S2097152x19 .f32 := Host.absf main_arg0
  let main_cst : FVec F S_ .f32 := constant S_ .f32 0x7F800000#32
  let main_v1 : FVec F S2097152x19 .f32 := broadcastInDim S2097152x19 ![] bcast_S_S2097152x19 main_cst
  let main_v2 : IVec S2097152x19 1 := cmpf .olt main_v0 main_v1
  let main_c : IVec S_ 1 := constantI S_ 1 1#1
  let main_v3 : IVec S_ 1 := (fun x v => Host.reduce IntOp.andi x v reducesTo_S2097152x19_S_d0_1 h_S_) main_v2 main_c
  let main_v4 : FVec F S32x64 .f32 := Host.absf main_arg1
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x3 .f32 := Host.absf main_arg3
  let main_cst_4 : FVec F S_ .f32 := constant S_ .f32 0x7F800000#32
  let main_v15 : FVec F S64x3 .f32 := broadcastInDim S64x3 ![] bcast_S_S64x3 main_cst_4
  let main_v16 : IVec S64x3 1 := cmpf .olt main_v14 main_v15
  fn_part1 (F := F) main_v13 main_v16
-- ==== Kernel.lean ====
abbrev S2097152x19 : Shape := ⟨2, ![2097152, 19]⟩
abbrev S32x64 : Shape := ⟨2, ![32, 64]⟩
abbrev S64x64 : Shape := ⟨2, ![64, 64]⟩
abbrev S64x3 : Shape := ⟨2, ![64, 3]⟩
abbrev S2097152x3 : Shape := ⟨2, ![2097152, 3]⟩
abbrev S4096x19 : Shape := ⟨2, ![4096, 19]⟩
abbrev S4096x3 : Shape := ⟨2, ![4096, 3]⟩
abbrev S4096x16 : Shape := ⟨2, ![4096, 16]⟩
abbrev S4096x1 : Shape := ⟨2, ![4096, 1]⟩
abbrev S4096 : Shape := ⟨1, ![4096]⟩
abbrev S4096x32 : Shape := ⟨2, ![4096, 32]⟩
abbrev S4096x64 : Shape := ⟨2, ![4096, 64]⟩

abbrev nBuf : Space → Nat
  | .hbm => 5
  | .vmem => 7
  | .smem => 0
  | _ => 0

abbrev bufTy : (tb : Table) → Fin (tcTables nBuf tb) → BufTy
  | .hbm, ⟨0, _⟩ => ⟨S2097152x19, .f32⟩
  | .hbm, ⟨1, _⟩ => ⟨S32x64, .f32⟩
  | .hbm, ⟨2, _⟩ => ⟨S64x64, .f32⟩
  | .hbm, ⟨3, _⟩ => ⟨S64x3, .f32⟩
  | .hbm, ⟨4, _⟩ => ⟨S2097152x3, .f32⟩
  | .local _ .vmem, ⟨0, _⟩ => ⟨S4096x19, .f32⟩
  | .local _ .vmem, ⟨1, _⟩ => ⟨S4096x19, .f32⟩
  | .local _ .vmem, ⟨2, _⟩ => ⟨S32x64, .f32⟩
  | .local _ .vmem, ⟨3, _⟩ => ⟨S64x64, .f32⟩
  | .local _ .vmem, ⟨4, _⟩ => ⟨S64x3, .f32⟩
  | .local _ .vmem, ⟨5, _⟩ => ⟨S4096x3, .f32⟩
  | .local _ .vmem, ⟨6, _⟩ => ⟨S4096x3, .f32⟩
  | _, _ => ⟨S2097152x19, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x19 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S4096x19_S4096x19_0_0 : ∀ a, (![0, 0] : Fin 2 → Nat) a + S4096x19.size a ≤ S4096x19.size a
  h_S4096x19 : 0 < S4096x19.numel
  slices_S4096x19_o0_0_S4096x3 : S4096x19.Slices ![0, 0] S4096x3
  slices_S4096x19_o0_3_S4096x16 : S4096x19.Slices ![0, 3] S4096x16
  slices_S4096x3_o0_0_S4096x1 : S4096x3.Slices ![0, 0] S4096x1
  shapeCasts_S4096x1_S4096 : S4096x1.ShapeCasts S4096
  slices_S4096x3_o0_1_S4096x1 : S4096x3.Slices ![0, 1] S4096x1
  slices_S4096x3_o0_2_S4096x1 : S4096x3.Slices ![0, 2] S4096x1
  shapeCasts_S4096_S4096x1 : S4096.ShapeCasts S4096x1
  concatenates_S4096x1_S4096x1_S4096x1_S4096x1_S4096x1_S4096x1_S4096x1_S4096x1_S4096x1_S4096x1_S4096x1_S4096x1_S4096x1_S4096x1_S4096x1_S4096x1_S4096x16_d1 : Shape.Concatenates [S4096x1, S4096x1, S4096x1, S4096x1, S4096x1, S4096x1, S4096x1, S4096x1, S4096x1, S4096x1, S4096x1, S4096x1, S4096x1, S4096x1, S4096x1, S4096x1] S4096x16 1
  concatenates_S4096x16_S4096x16_S4096x32_d1 : Shape.Concatenates [S4096x16, S4096x16] S4096x32 1
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S64x64_S64x64_0_0 : ∀ a, (![0, 0] : Fin 2 → Nat) a + S64x64.size a ≤ S64x64.size a
  h_S64x64 : 0 < S64x64.numel
  inb_S64x3_S64x3_0_0 : ∀ a, (![0, 0] : Fin 2 → Nat) a + S64x3.size a ≤ S64x3.size a
  h_S64x3 : 0 < S64x3.numel
  inb_S4096x3_S4096x3_0_0 : ∀ a, (![0, 0] : Fin 2 → Nat) a + S4096x3.size a ≤ S4096x3.size a
  h_S4096x3 : 0 < S4096x3.numel
  dot_S4096x32_S32x64_S4096x64_1_0_0_1_n_n_wf : DotDims.WF S4096x32 S32x64 S4096x64 [1] [0] [0] [1] [] []
  dot_S4096x64_S64x64_S4096x64_1_0_0_1_n_n_wf : DotDims.WF S4096x64 S64x64 S4096x64 [1] [0] [0] [1] [] []
  dot_S4096x64_S64x3_S4096x3_1_0_0_1_n_n_wf : DotDims.WF S4096x64 S64x3 S4096x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x19.size a ≤ S2097152x19.size a
  hwx0_0 : ∀ i : grid0.Coords, EltTy.bits .f32 = 32 ∨ (Rect.block (s := S2097152x19) S4096x19.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x3.size a ≤ S64x3.size a
  hwx0_3 : ∀ i : grid0.Coords, EltTy.bits .f32 = 32 ∨ (Rect.block (s := S64x3) S64x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x3.size a ≤ S2097152x3.size a
  hwx0_4 : ∀ i : grid0.Coords, EltTy.bits .f32 = 32 ∨ (Rect.block (s := S2097152x3) S4096x3.size (cc0_transform_4 i) (hinb0_4 i)).WholeWords (EltTy.packing .f32)

variable [Facts₀]

def dot_S4096x32_S32x64_S4096x64_1_0_0_1_n_n : DotDims S4096x32 S32x64 S4096x64 where
  lhsContracting := [1]
  rhsContracting := [0]
  lhsNonContracting := [0]
  rhsNonContracting := [1]
  lhsBatch := []
  rhsBatch := []
  wf := dot_S4096x32_S32x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S4096x64_S64x3_S4096x3_1_0_0_1_n_n : DotDims S4096x64 S64x3 S4096x3 where
  lhsContracting := [1]
  rhsContracting := [0]
  lhsNonContracting := [0]
  rhsNonContracting := [1]
  lhsBatch := []
  rhsBatch := []
  wf := dot_S4096x64_S64x3_S4096x3_1_0_0_1_n_n_wf

abbrev win0_0 : Pipeline.Window sig grid0 :=
  Pipeline.Window.ofSpec (Memref.whole main_arg0) S4096x19.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S4096x3.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2097152x19 : Shape := ⟨2, ![2097152, 19]⟩
abbrev S32x64 : Shape := ⟨2, ![32, 64]⟩
abbrev S64x64 : Shape := ⟨2, ![64, 64]⟩
abbrev S64x3 : Shape := ⟨2, ![64, 3]⟩
abbrev S2097152x3 : Shape := ⟨2, ![2097152, 3]⟩
abbrev S_ : Shape := ⟨0, ![]⟩
abbrev S2097152x1 : Shape := ⟨2, ![2097152, 1]⟩
abbrev S2097152 : Shape := ⟨1, ![2097152]⟩
abbrev S2097152x16 : Shape := ⟨2, ![2097152, 16]⟩
abbrev S2097152x32 : Shape := ⟨2, ![2097152, 32]⟩
abbrev S2097152x64 : Shape := ⟨2, ![2097152, 64]⟩

abbrev nBuf : Space → Nat
  | .hbm => 136
  | .vmem => 0
  | .smem => 0
  | _ => 0

abbrev hbmTy0_0 (i : Nat) : BufTy := match i % 128 with
  | 0 => ⟨S2097152x19, .f32⟩
  | 1 => ⟨S32x64, .f32⟩
  | 2 => ⟨S64x64, .f32⟩
  | 3 => ⟨S64x3, .f32⟩
  | 4 => ⟨S2097152x3, .f32⟩
  | 5 => ⟨S_, .f32⟩
  | 6 => ⟨S2097152x3, .f32⟩
  | 7 => ⟨S2097152x3, .f32⟩
  | 8 => ⟨S_, .f32⟩
  | 9 => ⟨S2097152x3, .f32⟩
  | 10 => ⟨S2097152x3, .f32⟩
  | 11 => ⟨S2097152x1, .f32⟩
  | 12 => ⟨S2097152, .f32⟩
  | 13 => ⟨S2097152x1, .f32⟩
  | 14 => ⟨S2097152, .f32⟩
  | 15 => ⟨S2097152x1, .f32⟩
  | 16 => ⟨S2097152, .f32⟩
  | 17 => ⟨S2097152, .f32⟩
  | 18 => ⟨S2097152, .f32⟩
  | 19 => ⟨S2097152, .f32⟩
  | 20 => ⟨S2097152, .f32⟩
  | 21 => ⟨S2097152, .f32⟩
  | 22 => ⟨S2097152, .f32⟩
  | 23 => ⟨S_, .f32⟩
  | 24 => ⟨S2097152, .f32⟩
  | 25 => ⟨S_, .f32⟩
  | 26 => ⟨S2097152, .f32⟩
  | 27 => ⟨S2097152, .f32⟩
  | 28 => ⟨S_, .f32⟩
  | 29 => ⟨S2097152, .f32⟩
  | 30 => ⟨S2097152, .f32⟩
  | 31 => ⟨S_, .f32⟩
  | 32 => ⟨S2097152, .f32⟩
  | 33 => ⟨S2097152, .f32⟩
  | 34 => ⟨S_, .f32⟩
  | 35 => ⟨S2097152, .f32⟩
  | 36 => ⟨S2097152, .f32⟩
  | 37 => ⟨S_, .f32⟩
  | 38 => ⟨S2097152, .f32⟩
  | 39 => ⟨S2097152, .f32⟩
  | 40 => ⟨S_, .f32⟩
  | 41 => ⟨S2097152, .f32⟩
  | 42 => ⟨S2097152, .f32⟩
  | 43 => ⟨S_, .f32⟩
  | 44 => ⟨S2097152, .f32⟩
  | 45 => ⟨S2097152, .f32⟩
  | 46 => ⟨S_, .f32⟩
  | 47 => ⟨S2097152, .f32⟩
  | 48 => ⟨S2097152, .f32⟩
  | 49 => ⟨S2097152, .f32⟩
  | 50 => ⟨S_, .f32⟩
  | 51 => ⟨S2097152, .f32⟩
  | 52 => ⟨S2097152, .f32⟩
  | 53 => ⟨S_, .f32⟩
  | 54 => ⟨S2097152, .f32⟩
  | 55 => ⟨S2097152, .f32⟩
  | 56 => ⟨S_, .f32⟩
  | 57 => ⟨S2097152, .f32⟩
  | 58 => ⟨S2097152, .f32⟩
  | 59 => ⟨S2097152, .f32⟩
  | 60 => ⟨S2097152, .f32⟩
  | 61 => ⟨S_, .f32⟩
  | 62 => ⟨S2097152, .f32⟩
  | 63 => ⟨S2097152, .f32⟩
  | 64 => ⟨S2097152, .f32⟩
  | 65 => ⟨S_, .f32⟩
  | 66 => ⟨S2097152, .f32⟩
  | 67 => ⟨S2097152, .f32⟩
  | 68 => ⟨S_, .f32⟩
  | 69 => ⟨S2097152, .f32⟩
  | 70 => ⟨S2097152, .f32⟩
  | 71 => ⟨S_, .f32⟩
  | 72 => ⟨S2097152, .f32⟩
  | 73 => ⟨S2097152, .f32⟩
  | 74 => ⟨S2097152, .f32⟩
  | 75 => ⟨S_, .f32⟩
  | 76 => ⟨S2097152, .f32⟩
  | 77 => ⟨S2097152, .f32⟩
  | 78 => ⟨S_, .f32⟩
  | 79 => ⟨S2097152, .f32⟩
  | 80 => ⟨S2097152, .f32⟩
  | 81 => ⟨S_, .f32⟩
  | 82 => ⟨S2097152, .f32⟩
  | 83 => ⟨S2097152, .f32⟩
  | 84 => ⟨S2097152, .f32⟩
  | 85 => ⟨S_, .f32⟩
  | 86 => ⟨S2097152, .f32⟩
  | 87 => ⟨S2097152, .f32⟩
  | 88 => ⟨S_, .f32⟩
  | 89 => ⟨S2097152, .f32⟩
  | 90 => ⟨S2097152, .f32⟩
  | 91 => ⟨S_, .f32⟩
  | 92 => ⟨S2097152, .f32⟩
  | 93 => ⟨S2097152, .f32⟩
  | 94 => ⟨S2097152, .f32⟩
  | 95 => ⟨S_, .f32⟩
  | 96 => ⟨S2097152, .f32⟩
  | 97 => ⟨S2097152, .f32⟩
  | 98 => ⟨S2097152, .f32⟩
  | 99 => ⟨S2097152, .f32⟩
  | 100 => ⟨S_, .f32⟩
  | 101 => ⟨S2097152, .f32⟩
  | 102 => ⟨S2097152, .f32⟩
  | 103 => ⟨S_, .f32⟩
  | 104 => ⟨S2097152, .f32⟩
  | 105 => ⟨S2097152, .f32⟩
  | 106 => ⟨S2097152, .f32⟩
  | 107 => ⟨S2097152, .f32⟩
  | 108 => ⟨S2097152x1, .f32⟩
  | 109 => ⟨S2097152x1, .f32⟩
  | 110 => ⟨S2097152x1, .f32⟩
  | 111 => ⟨S2097152x1, .f32⟩
  | 112 => ⟨S2097152x1, .f32⟩
  | 113 => ⟨S2097152x1, .f32⟩
  | 114 => ⟨S2097152x1, .f32⟩
  | 115 => ⟨S2097152x1, .f32⟩
  | 116 => ⟨S2097152x1, .f32⟩
  | 117 => ⟨S2097152x1, .f32⟩
  | 118 => ⟨S2097152x1, .f32⟩
  | 119 => ⟨S2097152x1, .f32⟩
  | 120 => ⟨S2097152x1, .f32⟩
  | 121 => ⟨S2097152x1, .f32⟩
  | 122 => ⟨S2097152x1, .f32⟩
  | 123 => ⟨S2097152x1, .f32⟩
  | 124 => ⟨S2097152x16, .f32⟩
  | 125 => ⟨S2097152x16, .f32⟩
  | 126 => ⟨S2097152x32, .f32⟩
  | 127 => ⟨S2097152x64, .f32⟩
  | _ => ⟨S2097152x19, .f32⟩

abbrev hbmTy0_1 (i : Nat) : BufTy := match i % 128 with
  | 0 => ⟨S_, .f32⟩
  | 1 => ⟨S2097152x64, .f32⟩
  | 2 => ⟨S2097152x64, .f32⟩
  | 3 => ⟨S2097152x64, .f32⟩
  | 4 => ⟨S_, .f32⟩
  | 5 => ⟨S2097152x64, .f32⟩
  | 6 => ⟨S2097152x64, .f32⟩
  | 7 => ⟨S2097152x3, .f32⟩
  | _ => ⟨S2097152x19, .f32⟩

abbrev hbmTy (i : Nat) : BufTy := match i / 128 with
  | 0 => hbmTy0_0 i
  | 1 => hbmTy0_1 i
  | _ => ⟨S2097152x19, .f32⟩

abbrev bufTy : (tb : Table) → Fin (tcTables nBuf tb) → BufTy
  | .hbm, ⟨i, _⟩ => hbmTy i
  | _, _ => ⟨S2097152x19, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_10 : Ref sig .tc := ⟨.hbm, 50, rfl⟩
abbrev main_v35 : Ref sig .tc := ⟨.hbm, 51, rfl⟩
abbrev main_v36 : Ref sig .tc := ⟨.hbm, 52, rfl⟩
abbrev main_cst_11 : Ref sig .tc := ⟨.hbm, 53, rfl⟩
abbrev main_v37 : Ref sig .tc := ⟨.hbm, 54, rfl⟩
abbrev main_v38 : Ref sig .tc := ⟨.hbm, 55, rfl⟩
abbrev main_cst_12 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_13 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_14 : Ref sig .tc := ⟨.hbm, 65, rfl⟩
abbrev main_v46 : Ref sig .tc := ⟨.hbm, 66, rfl⟩
abbrev main_v47 : Ref sig .tc := ⟨.hbm, 67, rfl⟩
abbrev main_cst_15 : Ref sig .tc := ⟨.hbm, 68, rfl⟩
abbrev main_v48 : Ref sig .tc := ⟨.hbm, 69, rfl⟩
abbrev main_v49 : Ref sig .tc := ⟨.hbm, 70, rfl⟩
abbrev main_cst_16 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_17 : Ref sig .tc := ⟨.hbm, 75, rfl⟩
abbrev main_v53 : Ref sig .tc := ⟨.hbm, 76, rfl⟩
abbrev main_v54 : Ref sig .tc := ⟨.hbm, 77, rfl⟩
abbrev main_cst_18 : Ref sig .tc := ⟨.hbm, 78, rfl⟩
abbrev main_v55 : Ref sig .tc := ⟨.hbm, 79, rfl⟩
abbrev main_v56 : Ref sig .tc := ⟨.hbm, 80, rfl⟩
abbrev main_cst_19 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_20 : Ref sig .tc := ⟨.hbm, 85, rfl⟩
abbrev main_v60 : Ref sig .tc := ⟨.hbm, 86, rfl⟩
abbrev main_v61 : Ref sig .tc := ⟨.hbm, 87, rfl⟩
abbrev main_cst_21 : Ref sig .tc := ⟨.hbm, 88, rfl⟩
abbrev main_v62 : Ref sig .tc := ⟨.hbm, 89, rfl⟩
abbrev main_v63 : Ref sig .tc := ⟨.hbm, 90, rfl⟩
abbrev main_cst_22 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_23 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_24 : Ref sig .tc := ⟨.hbm, 100, rfl⟩
abbrev main_v71 : Ref sig .tc := ⟨.hbm, 101, rfl⟩
abbrev main_v72 : Ref sig .tc := ⟨.hbm, 102, rfl⟩
abbrev main_cst_25 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_call0_cst : Ref sig .tc := ⟨.hbm, 128, rfl⟩
abbrev main_call0_v0 : Ref sig .tc := ⟨.hbm, 129, rfl⟩
abbrev main_v97 : Ref sig .tc := ⟨.hbm, 130, rfl⟩
abbrev main_v98 : Ref sig .tc := ⟨.hbm, 131, rfl⟩
abbrev main_call1_cst : Ref sig .tc := ⟨.hbm, 132, rfl⟩
abbrev main_call1_v0 : Ref sig .tc := ⟨.hbm, 133, rfl⟩
abbrev main_v99 : Ref sig .tc := ⟨.hbm, 134, rfl⟩
abbrev main_v100 : Ref sig .tc := ⟨.hbm, 135, rfl⟩

abbrev nD : Nat := 1
abbrev τ : Topo := Topo.v7x

variable {F : FTy → Type} [FloatOps F]

class Facts₀ : Prop where
  slices_S2097152x19_S2097152x3_0_0 : S2097152x19.Slices ![0, 0] S2097152x3
  bcast_S_S2097152x3 : S_.BroadcastsInDim S2097152x3 (![] : Fin 0 → Fin S2097152x3.rank)
  slices_S2097152x3_S2097152x1_0_0 : S2097152x3.Slices ![0, 0] S2097152x1
  shapeCasts_S2097152x1_S2097152 : S2097152x1.ShapeCasts S2097152
  slices_S2097152x3_S2097152x1_0_1 : S2097152x3.Slices ![0, 1] S2097152x1
  slices_S2097152x3_S2097152x1_0_2 : S2097152x3.Slices ![0, 2] S2097152x1
  bcast_S_S2097152 : S_.BroadcastsInDim S2097152 (![] : Fin 0 → Fin S2097152.rank)
  bcast_S2097152_S2097152x1_0 : S2097152.BroadcastsInDim S2097152x1 (![0] : Fin 1 → Fin S2097152x1.rank)
  concatenates_S2097152x1_S2097152x1_S2097152x1_S2097152x1_S2097152x1_S2097152x1_S2097152x1_S2097152x1_S2097152x1_S2097152x1_S2097152x1_S2097152x1_S2097152x1_S2097152x1_S2097152x1_S2097152x1_S2097152x16_d1 : Shape.Concatenates [S2097152x1, S2097152x1, S2097152x1, S2097152x1, S2097152x1, S2097152x1, S2097152x1, S2097152x1, S2097152x1, S2097152x1, S2097152x1, S2097152x1, S2097152x1, S2097152x1, S2097152x1, S2097152x1] S2097152x16 1
  slices_S2097152x19_S2097152x16_0_3 : S2097152x19.Slices ![0, 3] S2097152x16
  concatenates_S2097152x16_S2097152x16_S2097152x32_d1 : Shape.Concatenates [S2097152x16, S2097152x16] S2097152x32 1
  bcast_S_S2097152x64 : S_.BroadcastsInDim S2097152x64 (![] : Fin 0 → Fin S2097152x64.rank)
  dot_S2097152x32_S32x64_S2097152x64_1_0_0_1_n_n_wf : DotDims.WF S2097152x32 S32x64 S2097152x64 [1] [0] [0] [1] [] []
  dot_S2097152x64_S64x64_S2097152x64_1_0_0_1_n_n_wf : DotDims.WF S2097152x64 S64x64 S2097152x64 [1] [0] [0] [1] [] []
  dot_S2097152x64_S64x3_S2097152x3_1_0_0_1_n_n_wf : DotDims.WF S2097152x64 S64x3 S2097152x3 [1] [0] [0] [1] [] []

variable [Facts₀]

def dot_S2097152x32_S32x64_S2097152x64_1_0_0_1_n_n : DotDims S2097152x32 S32x64 S2097152x64 where
  lhsContracting := [1]
  rhsContracting := [0]
  lhsNonContracting := [0]
  rhsNonContracting := [1]
  lhsBatch := []
  rhsBatch := []
  wf := dot_S2097152x32_S32x64_S2097152x64_1_0_0_1_n_n_wf
def dot_S2097152x64_S64x64_S2097152x64_1_0_0_1_n_n : DotDims S2097152x64 S64x64 S2097152x64 where
  lhsContracting := [1]
  rhsContracting := [0]
  lhsNonContracting := [0]
  rhsNonContracting := [1]
  lhsBatch := []
  rhsBatch := []
  wf := dot_S2097152x64_S64x64_S2097152x64_1_0_0_1_n_n_wf
def dot_S2097152x64_S64x3_S2097152x3_1_0_0_1_n_n : DotDims S2097152x64 S64x3 S2097152x3 where
  lhsContracting := [1]
  rhsContracting := [0]
  lhsNonContracting := [0]
  rhsNonContracting := [1]
  lhsBatch := []
  rhsBatch := []
  wf := dot_S2097152x64_S64x3_S2097152x3_1_0_0_1_n_n_wf

class Facts : Prop extends Facts₀ where

variable [Facts]
-- ==== Proof.Spec.lean ====
/-
  The function both programs compute, row by row, on the extended reals.

  A row of the input holds a direction d ∈ [0,1]³ in its first three entries and sixteen pass-through features in the
  other sixteen. The direction is mapped to (X, Y, Z) = 2·d − 1, the sixteen real spherical harmonics of degree below
  four are evaluated at it (each a fixed polynomial in X, Y, Z with fixed f32 coefficients, written here in the one
  association both programs use), and the thirty-two numbers — harmonics first, features after — go through a bias-free
  perceptron 32 → 64 → 64 → 3 with the ramp max(·, 0) after the first two layers. Nothing here needs the entries to
  be finite: the two programs spell the same tree of sums, products, differences and maxima, and only the order in
  which a contraction's terms are indexed differs.
-/
import Idealize.ShloMosaic.PureOps.Ideal
import Idealize.ShloMosaic.Lib.ValueIdx

noncomputable section

open scoped BigOperators

open Idealize.ShloMosaic Idealize.ShloMosaic.ValueIdx

namespace Cert.ShMlp

/-- An f32 word as the extended real it denotes. -/
abbrev lit (w : BitVec 32) : EReal := Ideal.ofBits .f32 w

/-- A direction coordinate in [0,1] mapped to [-1,1]: 2·d − 1. -/
def dir (d : EReal) : EReal := d * lit 0x40000000#32 - lit 0x3F800000#32

/-- The sixteen real spherical harmonics of degree 0 … 3 at (X, Y, Z), each in the association the programs use. -/
def sh (X Y Z : EReal) : Fin 16 → EReal
  | ⟨0, _⟩ => lit 0x3E906EBB#32
  | ⟨1, _⟩ => lit 0xBEFA2A1C#32 * Y
  | ⟨2, _⟩ => lit 0x3EFA2A1C#32 * Z
  | ⟨3, _⟩ => lit 0xBEFA2A1C#32 * X
  | ⟨4, _⟩ => lit 0x3F8BD8A1#32 * (X * Y)
  | ⟨5, _⟩ => lit 0xBF8BD8A1#32 * (Y * Z)
  | ⟨6, _⟩ => lit 0x3F723881#32 * (Z * Z) - lit 0x3EA17B01#32
  | ⟨7, _⟩ => lit 0xBF8BD8A1#32 * (X * Z)
  | ⟨8, _⟩ => lit 0x3F0BD8A1#32 * (X * X - Y * Y)
  | ⟨9, _⟩ => lit 0x3F170D19#32 * Y * (lit 0xC0400000#32 * (X * X) + Y * Y)
  | ⟨10, _⟩ => lit 0x4038FFC7#32 * (X * Y) * Z
  | ⟨11, _⟩ => lit 0x3EEA01E8#32 * Y * (lit 0x3F800000#32 - lit 0x40A00000#32 * (Z * Z))
  | ⟨12, _⟩ => lit 0x3EBF10F8#32 * Z * (lit 0x40A00000#32 * (Z * Z) - lit 0x40400000#32)
  | ⟨13, _⟩ => lit 0x3EEA01E8#32 * X * (lit 0x3F800000#32 - lit 0x40A00000#32 * (Z * Z))
  | ⟨14, _⟩ => lit 0x3FB8FFC7#32 * Z * (X * X - Y * Y)
  | ⟨15, _⟩ => lit 0x3F170D19#32 * X * (X * X - lit 0x40400000#32 * (Y * Y))
  | ⟨_ + 16, h⟩ => absurd h (by omega)

/-- The encoded row: the sixteen harmonics of the mapped direction, then the sixteen pass-through features. -/
def enc (x : Fin 19 → EReal) (q : Fin 32) : EReal :=
  if h : q.val < 16 then sh (dir (x 0)) (dir (x 1)) (dir (x 2)) ⟨q.val, h⟩
  else x ⟨3 + (q.val - 16), by have := q.isLt; omega⟩

/-- One bias-free layer followed by the ramp: max(Σₖ aₖ · W[k, j], 0). -/
def rampLayer {K N : ℕ} (a : Fin K → EReal) (W : (⟨2, ![K, N]⟩ : Shape).Idx → EReal) (j : Fin N) : EReal :=
  max (∑ k : Fin K, a k * W (ix2 k j)) (lit 0x00000000#32)

/-- One bias-free linear layer: Σₖ aₖ · W[k, j]. -/
def linLayer {K N : ℕ} (a : Fin K → EReal) (W : (⟨2, ![K, N]⟩ : Shape).Idx → EReal) (j : Fin N) : EReal :=
  ∑ k : Fin K, a k * W (ix2 k j)

/-- The perceptron on one row. -/
def net (x : Fin 19 → EReal) (W1 : (⟨2, ![32, 64]⟩ : Shape).Idx → EReal) (W2 : (⟨2, ![64, 64]⟩ : Shape).Idx → EReal)
    (W3 : (⟨2, ![64, 3]⟩ : Shape).Idx → EReal) (c : Fin 3) : EReal :=
  linLayer (rampLayer (rampLayer (enc x) W1) W2) W3 c

/-- Row `p` of a matrix with nineteen columns. -/
def row {A : ℕ} (x : (⟨2, ![A, 19]⟩ : Shape).Idx → EReal) (p : Fin A) : Fin 19 → EReal := fun k => x (ix2 p k)

/-- The whole result: entry (r, c) is the perceptron's output c on row r of the input. -/
def G {A : ℕ} (x : (⟨2, ![A, 19]⟩ : Shape).Idx → EReal) (W1 : (⟨2, ![32, 64]⟩ : Shape).Idx → EReal)
    (W2 : (⟨2, ![64, 64]⟩ : Shape).Idx → EReal) (W3 : (⟨2, ![64, 3]⟩ : Shape).Idx → EReal) :
    (⟨2, ![A, 3]⟩ : Shape).Idx → EReal :=
  fun i => net (row x (i 0)) W1 W2 W3 (i 1)

theorem G_apply {A : ℕ} (x : (⟨2, ![A, 19]⟩ : Shape).Idx → EReal) (W1 : (⟨2, ![32, 64]⟩ : Shape).Idx → EReal)
    (W2 : (⟨2, ![64, 64]⟩ : Shape).Idx → EReal) (W3 : (⟨2, ![64, 3]⟩ : Shape).Idx → EReal) (p : Fin A) (c : Fin 3) :
    G x W1 W2 W3 (ix2 p c) = net (row x p) W1 W2 W3 c := rfl

end Cert.ShMlp

end
-- ==== Proof.LibColumnReads.lean ====
/- Column layouts read at coordinates, for any extents and any element type: a vector `[a]` cast to a column `[a, 1]`
   and back, one column of an `[a, b]` array taken as a unit-stride slice `[a, 1]`, and `N` columns `[a, 1]` laid side by
   side along axis 1 into `[a, N]`.  Each reads the operand at the coordinates that survive, the unit axis at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.ColumnReads

variable {α : Type}

/-- A vector `[a]` cast to a column `[a, 1]` reads, at `(p, z)`, the vector at `p`: both sit at row-major position `p`. -/
theorem shapeCast_a_a1_apply {a : ℕ} (v : (⟨1, ![a]⟩ : Shape).Idx → α) (h : (⟨1, ![a]⟩ : Shape).ShapeCasts ⟨2, ![a, 1]⟩)
    (p : Fin a) (z : Fin 1) : shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- A column `[a, 1]` cast to a vector `[a]` reads, at `p`, the column at `(p, 0)`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) := by
  refine shapeCast_apply v h (ix1 p) (ix2 p (0 : Fin 1)) ?_
  rw [Shape.rowMajor_val_one, Shape.rowMajor_val_two]
  show p.val * 1 + 0 = p.val
  omega

/-- Column `o` of an `[a, b]` array, taken as the unit-stride slice `[a, 1]` at offsets `(0, o)`, reads at `(p, z)` the
    array at `(p, o)`. -/
theorem slice_column_apply {a b : ℕ} (o : ℕ) (ho : o < b) (x : (⟨2, ![a, b]⟩ : Shape).Idx → α)
    (h : (⟨2, ![a, b]⟩ : Shape).Slices ![0, o] ⟨2, ![a, 1]⟩) (p : Fin a) (z : Fin 1) :
    extractStridedSlice ⟨2, ![a, 1]⟩ ![0, o] x h (ix2 p z) = x (ix2 p (⟨o, ho⟩ : Fin b)) := by
  refine extractStridedSlice_apply _ x h (ix2 p z) (ix2 p (⟨o, ho⟩ : Fin b)) fun ax => ?_
  match ax with
  | ⟨0, _⟩ => show p.val = 0 + p.val; omega
  | ⟨1, _⟩ => show o = o + z.val; have := z.isLt; omega

/-- `N` columns `[a, 1]` laid side by side along axis 1 read, at `(p, n)`, column `n` at `(p, 0)`. -/
theorem concat_columns_apply {a N : ℕ} (f : Fin N → ((⟨2, ![a, 1]⟩ : Shape).Idx → α))
    (h : Shape.Concatenates ((List.ofFn fun n : Fin N => (⟨⟨2, ![a, 1]⟩, f n⟩ : (s : Shape) × (s.Idx → α))).map (·.1))
      ⟨2, ![a, N]⟩ (1 : Fin 2))
    (p : Fin a) (n : Fin N) :
    concatenate ⟨2, ![a, N]⟩ (1 : Fin 2) (List.ofFn fun n : Fin N => (⟨⟨2, ![a, 1]⟩, f n⟩ : (s : Shape) × (s.Idx → α))) h (ix2 p n)
      = f n (ix2 p (0 : Fin 1)) := by
  refine concatenate_ofFn_unit_apply (t := ⟨2, ![a, N]⟩) (s₁ := ⟨2, ![a, 1]⟩) (1 : Fin 2) f h rfl rfl (ix2 p n) n rfl
    (ix2 p (0 : Fin 1)) fun b hb => ?_
  match b with
  | ⟨0, _⟩ => rfl
  | ⟨1, _⟩ => exact absurd rfl hb

end Cert.Lib.ColumnReads

end
-- ==== Proof.LibPairConcat.lean ====
/-
  Two arrays laid end to end along one axis of a rank-2 array, read at an index from its coordinates: for any
  extents and any element type, the first piece where the coordinate on that axis is below the first piece's
  extent, and the second piece, the first extent less, from there on. Stated for pieces side by side
  ([a, k₁] and [a, k₂] into [a, n], along axis 1) and for pieces stacked ([k₁, b] and [k₂, b] into [n, b], along
  axis 0).
-/
import Idealize.ShloMosaic.Lib.Pipeline.Value
import Idealize.ShloMosaic.Lib.ValueIdx

noncomputable section

open Idealize.ShloMosaic Idealize.ShloMosaic.ValueIdx

namespace Cert.Lib.PairConcat

variable {α : Type}

/-- Side by side, a column of the first piece: the first piece at the same row and column. -/
theorem concat_axis1_left {a k₁ k₂ n : ℕ} (u : (⟨2, ![a, k₁]⟩ : Shape).Idx → α) (v : (⟨2, ![a, k₂]⟩ : Shape).Idx → α)
    (h : Shape.Concatenates [⟨2, ![a, k₁]⟩, ⟨2, ![a, k₂]⟩] ⟨2, ![a, n]⟩ 1) (p : Fin a) (q : Fin n) (hq : q.val < k₁) :
    concatenate ⟨2, ![a, n]⟩ 1 [⟨⟨2, ![a, k₁]⟩, u⟩, ⟨⟨2, ![a, k₂]⟩, v⟩] h (ix2 p q) = u (ix2 p ⟨q.val, hq⟩) :=
  concatenate_pair_apply_left 1 u v h (ix2 p q) rfl (ix2 p ⟨q.val, hq⟩)
    (fun b => match b with | ⟨0, _⟩ => rfl | ⟨1, _⟩ => rfl)

/-- Side by side, a column past the first piece: the second piece at the same row, the column less the first
    piece's width. -/
theorem concat_axis1_right {a k₁ k₂ n : ℕ} (u : (⟨2, ![a, k₁]⟩ : Shape).Idx → α) (v : (⟨2, ![a, k₂]⟩ : Shape).Idx → α)
    (h : Shape.Concatenates [⟨2, ![a, k₁]⟩, ⟨2, ![a, k₂]⟩] ⟨2, ![a, n]⟩ 1) (p : Fin a) (q : Fin n) (hq : k₁ ≤ q.val)
    (hq₂ : q.val - k₁ < k₂) :
    concatenate ⟨2, ![a, n]⟩ 1 [⟨⟨2, ![a, k₁]⟩, u⟩, ⟨⟨2, ![a, k₂]⟩, v⟩] h (ix2 p q) = v (ix2 p ⟨q.val - k₁, hq₂⟩) :=
  concatenate_pair_apply_right 1 u v h (ix2 p q) rfl rfl (ix2 p ⟨q.val - k₁, hq₂⟩)
    (fun b hb => match b, hb with | ⟨0, _⟩, _ => rfl | ⟨1, _⟩, hb => absurd rfl hb)
    (by show q.val - k₁ + k₁ = q.val; omega)

/-- Stacked, a row of the first piece: the first piece at the same row and column. -/
theorem concat_axis0_left {k₁ k₂ n b : ℕ} (u : (⟨2, ![k₁, b]⟩ : Shape).Idx → α) (v : (⟨2, ![k₂, b]⟩ : Shape).Idx → α)
    (h : Shape.Concatenates [⟨2, ![k₁, b]⟩, ⟨2, ![k₂, b]⟩] ⟨2, ![n, b]⟩ 0) (q : Fin n) (c : Fin b) (hq : q.val < k₁) :
    concatenate ⟨2, ![n, b]⟩ 0 [⟨⟨2, ![k₁, b]⟩, u⟩, ⟨⟨2, ![k₂, b]⟩, v⟩] h (ix2 q c) = u (ix2 ⟨q.val, hq⟩ c) :=
  concatenate_pair_apply_left 0 u v h (ix2 q c) rfl (ix2 ⟨q.val, hq⟩ c)
    (fun b => match b with | ⟨0, _⟩ => rfl | ⟨1, _⟩ => rfl)

/-- Stacked, a row past the first piece: the second piece at the row less the first piece's height, same column. -/
theorem concat_axis0_right {k₁ k₂ n b : ℕ} (u : (⟨2, ![k₁, b]⟩ : Shape).Idx → α) (v : (⟨2, ![k₂, b]⟩ : Shape).Idx → α)
    (h : Shape.Concatenates [⟨2, ![k₁, b]⟩, ⟨2, ![k₂, b]⟩] ⟨2, ![n, b]⟩ 0) (q : Fin n) (c : Fin b) (hq : k₁ ≤ q.val)
    (hq₂ : q.val - k₁ < k₂) :
    concatenate ⟨2, ![n, b]⟩ 0 [⟨⟨2, ![k₁, b]⟩, u⟩, ⟨⟨2, ![k₂, b]⟩, v⟩] h (ix2 q c) = v (ix2 ⟨q.val - k₁, hq₂⟩ c) :=
  concatenate_pair_apply_right 0 u v h (ix2 q c) rfl rfl (ix2 ⟨q.val - k₁, hq₂⟩ c)
    (fun b hb => match b, hb with | ⟨0, _⟩, hb => absurd rfl hb | ⟨1, _⟩, _ => rfl)
    (by show q.val - k₁ + k₁ = q.val; omega)

end Cert.Lib.PairConcat

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.LibSideBySide.lean ====
/-
  Equal pieces laid side by side, read at coordinates, for any extents and any element type.
  Three (or two) matrices of one shape [a, k] concatenated along the column axis: column o + c of the result, where o is
  the total width of the pieces before piece number n and c < k, is piece n at column c, the row unchanged. Three
  vectors of one length [k] laid end to end: entry o + c is piece n at c. A column window of a matrix, starting at
  column o and keeping every row, reads the matrix at column o + c. Nothing here depends on a particular program.
-/
import Idealize.ShloMosaic.Lib.Pipeline.Value
import Idealize.ShloMosaic.Lib.ValueIdx

noncomputable section

open Idealize.ShloMosaic Idealize.ShloMosaic.ValueIdx

namespace Cert.Lib.SideBySide

variable {α : Type}

/-- A window of columns o … of a matrix, all rows kept: at (r, c) it is the matrix at (r, o + c). -/
theorem colWindow_apply {A B b : ℕ} (o : ℕ) (x : (⟨2, ![A, B]⟩ : Shape).Idx → α)
    (h : (⟨2, ![A, B]⟩ : Shape).Slices ![0, o] ⟨2, ![A, b]⟩) (r : Fin A) (c : Fin b) (hc : o + c.val < B) :
    extractStridedSlice ⟨2, ![A, b]⟩ ![0, o] x h (ix2 r c) = x (ix2 r ⟨o + c.val, hc⟩) :=
  extractStridedSlice_apply ![0, o] x h (ix2 r c) (ix2 r ⟨o + c.val, hc⟩)
    (fun d => match d with
      | ⟨0, _⟩ => (Nat.zero_add _).symm
      | ⟨1, _⟩ => rfl)

/-- Three matrices side by side: a column of the first. -/
theorem cols3_first {a k n : ℕ} (x0 x1 x2 : (⟨2, ![a, k]⟩ : Shape).Idx → α)
    (h : Shape.Concatenates [⟨2, ![a, k]⟩, ⟨2, ![a, k]⟩, ⟨2, ![a, k]⟩] ⟨2, ![a, n]⟩ 1) (p : Fin a) (c : Fin k) (hc : 0 + c.val < n) :
    concatenate ⟨2, ![a, n]⟩ 1 [⟨⟨2, ![a, k]⟩, x0⟩, ⟨⟨2, ![a, k]⟩, x1⟩, ⟨⟨2, ![a, k]⟩, x2⟩] h (ix2 p ⟨0 + c.val, hc⟩) = x0 (ix2 p c) :=
  concatenate_apply_piece 1 [⟨⟨2, ![a, k]⟩, x0⟩, ⟨⟨2, ![a, k]⟩, x1⟩, ⟨⟨2, ![a, k]⟩, x2⟩] h (ix2 p ⟨0 + c.val, hc⟩) 0 (by simp) ⟨2, ![a, k]⟩ x0 rfl rfl (0) rfl (ix2 p c)
    (fun b hb => match b, hb with | ⟨0, _⟩, _ => rfl | ⟨1, _⟩, hb => absurd rfl hb) rfl

/-- Three matrices side by side: a column of the second. -/
theorem cols3_second {a k n : ℕ} (x0 x1 x2 : (⟨2, ![a, k]⟩ : Shape).Idx → α)
    (h : Shape.Concatenates [⟨2, ![a, k]⟩, ⟨2, ![a, k]⟩, ⟨2, ![a, k]⟩] ⟨2, ![a, n]⟩ 1) (p : Fin a) (c : Fin k) (hc : k + c.val < n) :
    concatenate ⟨2, ![a, n]⟩ 1 [⟨⟨2, ![a, k]⟩, x0⟩, ⟨⟨2, ![a, k]⟩, x1⟩, ⟨⟨2, ![a, k]⟩, x2⟩] h (ix2 p ⟨k + c.val, hc⟩) = x1 (ix2 p c) :=
  concatenate_apply_piece 1 [⟨⟨2, ![a, k]⟩, x0⟩, ⟨⟨2, ![a, k]⟩, x1⟩, ⟨⟨2, ![a, k]⟩, x2⟩] h (ix2 p ⟨k + c.val, hc⟩) 1 (by simp) ⟨2, ![a, k]⟩ x1 rfl rfl (k) (by simp) (ix2 p c)
    (fun b hb => match b, hb with | ⟨0, _⟩, _ => rfl | ⟨1, _⟩, hb => absurd rfl hb) rfl

/-- Three matrices side by side: a column of the third. -/
theorem cols3_third {a k n : ℕ} (x0 x1 x2 : (⟨2, ![a, k]⟩ : Shape).Idx → α)
    (h : Shape.Concatenates [⟨2, ![a, k]⟩, ⟨2, ![a, k]⟩, ⟨2, ![a, k]⟩] ⟨2, ![a, n]⟩ 1) (p : Fin a) (c : Fin k) (hc : k + k + c.val < n) :
    concatenate ⟨2, ![a, n]⟩ 1 [⟨⟨2, ![a, k]⟩, x0⟩, ⟨⟨2, ![a, k]⟩, x1⟩, ⟨⟨2, ![a, k]⟩, x2⟩] h (ix2 p ⟨k + k + c.val, hc⟩) = x2 (ix2 p c) :=
  concatenate_apply_piece 1 [⟨⟨2, ![a, k]⟩, x0⟩, ⟨⟨2, ![a, k]⟩, x1⟩, ⟨⟨2, ![a, k]⟩, x2⟩] h (ix2 p ⟨k + k + c.val, hc⟩) 2 (by simp) ⟨2, ![a, k]⟩ x2 rfl rfl (k + k) (by simp) (ix2 p c)
    (fun b hb => match b, hb with | ⟨0, _⟩, _ => rfl | ⟨1, _⟩, hb => absurd rfl hb) rfl

/-- Two matrices side by side: a column of the first. -/
theorem cols2_first {a k n : ℕ} (x0 x1 : (⟨2, ![a, k]⟩ : Shape).Idx → α)
    (h : Shape.Concatenates [⟨2, ![a, k]⟩, ⟨2, ![a, k]⟩] ⟨2, ![a, n]⟩ 1) (p : Fin a) (c : Fin k) (hc : 0 + c.val < n) :
    concatenate ⟨2, ![a, n]⟩ 1 [⟨⟨2, ![a, k]⟩, x0⟩, ⟨⟨2, ![a, k]⟩, x1⟩] h (ix2 p ⟨0 + c.val, hc⟩) = x0 (ix2 p c) :=
  concatenate_apply_piece 1 [⟨⟨2, ![a, k]⟩, x0⟩, ⟨⟨2, ![a, k]⟩, x1⟩] h (ix2 p ⟨0 + c.val, hc⟩) 0 (by simp) ⟨2, ![a, k]⟩ x0 rfl rfl (0) rfl (ix2 p c)
    (fun b hb => match b, hb with | ⟨0, _⟩, _ => rfl | ⟨1, _⟩, hb => absurd rfl hb) rfl

/-- Two matrices side by side: a column of the second. -/
theorem cols2_second {a k n : ℕ} (x0 x1 : (⟨2, ![a, k]⟩ : Shape).Idx → α)
    (h : Shape.Concatenates [⟨2, ![a, k]⟩, ⟨2, ![a, k]⟩] ⟨2, ![a, n]⟩ 1) (p : Fin a) (c : Fin k) (hc : k + c.val < n) :
    concatenate ⟨2, ![a, n]⟩ 1 [⟨⟨2, ![a, k]⟩, x0⟩, ⟨⟨2, ![a, k]⟩, x1⟩] h (ix2 p ⟨k + c.val, hc⟩) = x1 (ix2 p c) :=
  concatenate_apply_piece 1 [⟨⟨2, ![a, k]⟩, x0⟩, ⟨⟨2, ![a, k]⟩, x1⟩] h (ix2 p ⟨k + c.val, hc⟩) 1 (by simp) ⟨2, ![a, k]⟩ x1 rfl rfl (k) (by simp) (ix2 p c)
    (fun b hb => match b, hb with | ⟨0, _⟩, _ => rfl | ⟨1, _⟩, hb => absurd rfl hb) rfl

/-- Three vectors end to end: an entry of the first. -/
theorem ends3_first {k n : ℕ} (x0 x1 x2 : (⟨1, ![k]⟩ : Shape).Idx → α)
    (h : Shape.Concatenates [⟨1, ![k]⟩, ⟨1, ![k]⟩, ⟨1, ![k]⟩] ⟨1, ![n]⟩ 0) (c : Fin k) (hc : 0 + c.val < n) :
    concatenate ⟨1, ![n]⟩ 0 [⟨⟨1, ![k]⟩, x0⟩, ⟨⟨1, ![k]⟩, x1⟩, ⟨⟨1, ![k]⟩, x2⟩] h (ix1 ⟨0 + c.val, hc⟩) = x0 (ix1 c) :=
  concatenate_apply_piece 0 [⟨⟨1, ![k]⟩, x0⟩, ⟨⟨1, ![k]⟩, x1⟩, ⟨⟨1, ![k]⟩, x2⟩] h (ix1 ⟨0 + c.val, hc⟩) 0 (by simp) ⟨1, ![k]⟩ x0 rfl rfl (0) rfl (ix1 c)
    (fun b hb => match b, hb with | ⟨0, _⟩, hb => absurd rfl hb) rfl

/-- Three vectors end to end: an entry of the second. -/
theorem ends3_second {k n : ℕ} (x0 x1 x2 : (⟨1, ![k]⟩ : Shape).Idx → α)
    (h : Shape.Concatenates [⟨1, ![k]⟩, ⟨1, ![k]⟩, ⟨1, ![k]⟩] ⟨1, ![n]⟩ 0) (c : Fin k) (hc : k + c.val < n) :
    concatenate ⟨1, ![n]⟩ 0 [⟨⟨1, ![k]⟩, x0⟩, ⟨⟨1, ![k]⟩, x1⟩, ⟨⟨1, ![k]⟩, x2⟩] h (ix1 ⟨k + c.val, hc⟩) = x1 (ix1 c) :=
  concatenate_apply_piece 0 [⟨⟨1, ![k]⟩, x0⟩, ⟨⟨1, ![k]⟩, x1⟩, ⟨⟨1, ![k]⟩, x2⟩] h (ix1 ⟨k + c.val, hc⟩) 1 (by simp) ⟨1, ![k]⟩ x1 rfl rfl (k) (by simp) (ix1 c)
    (fun b hb => match b, hb with | ⟨0, _⟩, hb => absurd rfl hb) rfl

/-- Three vectors end to end: an entry of the third. -/
theorem ends3_third {k n : ℕ} (x0 x1 x2 : (⟨1, ![k]⟩ : Shape).Idx → α)
    (h : Shape.Concatenates [⟨1, ![k]⟩, ⟨1, ![k]⟩, ⟨1, ![k]⟩] ⟨1, ![n]⟩ 0) (c : Fin k) (hc : k + k + c.val < n) :
    concatenate ⟨1, ![n]⟩ 0 [⟨⟨1, ![k]⟩, x0⟩, ⟨⟨1, ![k]⟩, x1⟩, ⟨⟨1, ![k]⟩, x2⟩] h (ix1 ⟨k + k + c.val, hc⟩) = x2 (ix1 c) :=
  concatenate_apply_piece 0 [⟨⟨1, ![k]⟩, x0⟩, ⟨⟨1, ![k]⟩, x1⟩, ⟨⟨1, ![k]⟩, x2⟩] h (ix1 ⟨k + k + c.val, hc⟩) 2 (by simp) ⟨1, ![k]⟩ x2 rfl rfl (k + k) (by simp) (ix1 c)
    (fun b hb => match b, hb with | ⟨0, _⟩, hb => absurd rfl hb) rfl

end Cert.Lib.SideBySide

end
-- ==== Proof.KernelRow.lean ====
/-
  What the body leaves in the output block, entry by entry: on a block of 4096 rows the body computes, for row p and
  output column c, the perceptron's output c on row p of the input block (the specification's `net`).
-/
import proofs.«133409_j81827716923549_2_alg».proof.Proof.Gen.KernelIdeal.Skeleton
import proofs.«133409_j81827716923549_2_alg».proof.Proof.Spec
import proofs.«133409_j81827716923549_2_alg».proof.Proof.LibColumnReads
import proofs.«133409_j81827716923549_2_alg».proof.Proof.LibPairConcat
import proofs.«133409_j81827716923549_2_alg».proof.Proof.LibPlainMatmul
import proofs.«133409_j81827716923549_2_alg».proof.Proof.LibSideBySide
import Idealize.ShloMosaic.Lib.ValueIdx
import Idealize.ShloMosaic.Lib.Pipeline.Value
import Idealize.ShloMosaic.PureOps.Ideal.Laws

noncomputable section

open scoped BigOperators

open Idealize.ShloMosaic Idealize.ShloMosaic.ValueIdx
open Cert.KernelIdeal Cert.KernelIdeal.Gen
open Cert.Lib.ColumnReads Cert.Lib.PairConcat Cert.Lib.PlainMatmul Cert.Lib.SideBySide

namespace Cert.KernelIdeal.RowValue

variable (v0 : Vec Ideal S4096x19 .f32)

/-! ## The mapped direction -/

/-- The first three columns of the block, mapped: entry (p, o) is 2·x[p, o] − 1. -/
theorem mapped (p : Fin 4096) (o : Fin 3) :
    k0_pay4 (F := Ideal) v0 (ix2 p o) = ShMlp.dir (v0 (ix2 p ⟨0 + o.val, by have := o.isLt; omega⟩)) := by
  unfold k0_pay4
  show (extractStridedSlice S4096x3 ![0, 0] v0 _) (ix2 p o) * _ - _ = _
  rw [colWindow_apply 0]
  rfl

/-- The vector X: entry p is the mapped first coordinate of row p. -/
theorem dirX (p : Fin 4096) : k0_pay5 (F := Ideal) v0 (ix1 p) = ShMlp.dir (v0 (ix2 p 0)) := by
  unfold k0_pay5
  rw [shapeCast_a1_a_apply, slice_column_apply 0 (by decide), mapped]
  rfl

/-- The vector Y. -/
theorem dirY (p : Fin 4096) : k0_pay6 (F := Ideal) v0 (ix1 p) = ShMlp.dir (v0 (ix2 p 1)) := by
  unfold k0_pay6
  rw [shapeCast_a1_a_apply, slice_column_apply 1 (by decide), mapped]
  rfl

/-- The vector Z. -/
theorem dirZ (p : Fin 4096) : k0_pay7 (F := Ideal) v0 (ix1 p) = ShMlp.dir (v0 (ix2 p 2)) := by
  unfold k0_pay7
  rw [shapeCast_a1_a_apply, slice_column_apply 2 (by decide), mapped]
  rfl

/-! ## The sixteen harmonics, side by side -/

/-- Sixteen vectors, each cast to a column, laid side by side: entry (p, n) is vector n at p. -/
theorem columns_apply (f : Fin 16 → FVec Ideal S4096 .f32)
    (h : Shape.Concatenates ((List.ofFn fun n : Fin 16 => (⟨S4096x1, shapeCast S4096x1 (f n) shapeCasts_S4096_S4096x1⟩ : (s : Shape) × (s.Idx → Ideal .f32))).map (·.1)) S4096x16 (1 : Fin 2))
    (p : Fin 4096) (n : Fin 16) :
    concatenate S4096x16 (1 : Fin 2) (List.ofFn fun n : Fin 16 => (⟨S4096x1, shapeCast S4096x1 (f n) shapeCasts_S4096_S4096x1⟩ : (s : Shape) × (s.Idx → Ideal .f32))) h (ix2 p n)
      = f n (ix1 p) :=
  (concat_columns_apply (fun n => shapeCast S4096x1 (f n) shapeCasts_S4096_S4096x1) h p n).trans
    (shapeCast_a_a1_apply (f n) shapeCasts_S4096_S4096x1 p 0)

/-- The sixteen vectors the body casts to columns: the harmonics of the mapped direction, row by row. -/
abbrev shVecs : Fin 16 → FVec Ideal S4096 .f32 :=
  ![k0_pay12 (F := Ideal),
    k0_pay13 v0,
    k0_pay14 v0,
    k0_pay15 v0,
    k0_pay16 v0,
    k0_pay17 v0,
    k0_pay18 v0,
    k0_pay19 v0,
    k0_pay20 v0,
    mulf (k0_pay21 v0) (addf (k0_pay22 v0) (k0_pay10 v0)),
    mulf (mulf (broadcast S4096 (Scalar.ofBits (F := Ideal) .f32 0x4038FFC7#32)) (k0_pay8 v0)) (k0_pay7 v0),
    k0_pay23 (k0_pay6 v0) (k0_pay11 v0),
    k0_pay24 (k0_pay7 v0) (k0_pay11 v0),
    k0_pay25 (k0_pay5 v0) (k0_pay11 v0),
    k0_pay26 (k0_pay7 v0) (k0_pay9 v0) (k0_pay10 v0),
    k0_pay27 (k0_pay5 v0) (k0_pay9 v0) (k0_pay10 v0)]

/-- The block of harmonics the body assembles from the input block. -/
abbrev shBlock : FVec Ideal S4096x16 .f32 :=
  k0_pay1 (k0_pay23 (k0_pay6 v0) (k0_pay11 v0)) (k0_pay24 (k0_pay7 v0) (k0_pay11 v0)) (k0_pay25 (k0_pay5 v0) (k0_pay11 v0)) (k0_pay26 (k0_pay7 v0) (k0_pay9 v0) (k0_pay10 v0)) (k0_pay27 (k0_pay5 v0) (k0_pay9 v0) (k0_pay10 v0)) (k0_pay28 (k0_pay12 (F := Ideal))) (k0_pay29 (k0_pay13 v0)) (k0_pay30 (k0_pay14 v0)) (k0_pay31 (k0_pay15 v0)) (k0_pay32 (k0_pay16 v0)) (k0_pay33 (k0_pay17 v0)) (k0_pay34 (k0_pay18 v0)) (k0_pay35 (k0_pay19 v0)) (k0_pay36 (k0_pay20 v0)) (k0_pay37 (k0_pay10 v0) (k0_pay21 v0) (k0_pay22 v0)) (k0_pay38 (k0_pay7 v0) (k0_pay8 v0))

/-- Entry (p, n) of the block of harmonics is harmonic n at the mapped direction of row p. -/
theorem shBlock_apply (p : Fin 4096) (n : Fin 16) :
    shBlock v0 (ix2 p n) = ShMlp.sh (ShMlp.dir (v0 (ix2 p 0))) (ShMlp.dir (v0 (ix2 p 1))) (ShMlp.dir (v0 (ix2 p 2))) n := by
  rw [← dirX v0 p, ← dirY v0 p, ← dirZ v0 p]
  refine Eq.trans (b := shVecs v0 n (ix1 p)) ?_ ?_
  · exact columns_apply (shVecs v0) concatenates_S4096x1_S4096x1_S4096x1_S4096x1_S4096x1_S4096x1_S4096x1_S4096x1_S4096x1_S4096x1_S4096x1_S4096x1_S4096x1_S4096x1_S4096x1_S4096x1_S4096x16_d1 p n
  · fin_cases n <;> rfl

/-! ## The encoded block -/

/-- The pass-through features: columns 3 … 18 of the block. -/
theorem features_apply (p : Fin 4096) (c : Fin 16) :
    k0_pay3 (F := Ideal) v0 (ix2 p c) = v0 (ix2 p ⟨3 + c.val, by have := c.isLt; omega⟩) := by
  unfold k0_pay3
  exact colWindow_apply 3 v0 _ p c _

/-- The encoded block the first layer multiplies: harmonics, then features. -/
abbrev encBlock : FVec Ideal S4096x32 .f32 :=
  concatenate S4096x32 1 [⟨S4096x16, shBlock v0⟩, ⟨S4096x16, k0_pay3 v0⟩] concatenates_S4096x16_S4096x16_S4096x32_d1

/-- Entry (p, q) of the encoded block is entry q of the encoding of row p. -/
theorem encBlock_apply (p : Fin 4096) (q : Fin 32) : encBlock v0 (ix2 p q) = ShMlp.enc (ShMlp.row v0 p) q := by
  unfold ShMlp.enc
  by_cases h : q.val < 16
  · rw [dif_pos h]
    exact (concat_axis1_left (shBlock v0) (k0_pay3 v0) concatenates_S4096x16_S4096x16_S4096x32_d1 p q h).trans
      (shBlock_apply v0 p ⟨q.val, h⟩)
  · rw [dif_neg h]
    have h16 : 16 ≤ q.val := by omega
    have hq : q.val - 16 < 16 := by have := q.isLt; omega
    exact (concat_axis1_right (shBlock v0) (k0_pay3 v0) concatenates_S4096x16_S4096x16_S4096x32_d1 p q h16 hq).trans
      (features_apply v0 p ⟨q.val - 16, hq⟩)

/-! ## The layers -/

/-- A bf16 product with the plain dimension numbers into the zero accumulator, followed by the ramp against the zero
    splat: entry (p, j) is the ramp layer of row p of the left operand. (The two changes of format are the identity
    on the extended reals.) -/
theorem ramp_matmul_apply {M K N : ℕ} (a : FVec Ideal ⟨2, ![M, K]⟩ .f32) (w : FVec Ideal ⟨2, ![K, N]⟩ .f32)
    (hb : FTy.bits .bf16 < FTy.bits .f32) (p : Fin M) (j : Fin N) :
    maximumf (matmul (DotDims.plain M K N) none (truncf .bf16 a hb) (truncf .bf16 w hb) (constant ⟨2, ![M, N]⟩ .f32 0x00000000#32))
        (broadcast ⟨2, ![M, N]⟩ (Scalar.ofBits (F := Ideal) .f32 0x00000000#32)) (ix2 p j)
      = ShMlp.rampLayer (fun k => a (ix2 p k)) w j := by
  show max (FloatOps.matmul (DotDims.plain M K N) none (truncf .bf16 a hb) (truncf .bf16 w hb) (constant ⟨2, ![M, N]⟩ .f32 0x00000000#32) (ix2 p j)) _ = _
  rw [plain_matmul_zero_apply]
  rfl

/-- The same product without the ramp: entry (p, j) is the linear layer of row p of the left operand. -/
theorem lin_matmul_apply {M K N : ℕ} (a : FVec Ideal ⟨2, ![M, K]⟩ .f32) (w : FVec Ideal ⟨2, ![K, N]⟩ .f32)
    (hb : FTy.bits .bf16 < FTy.bits .f32) (p : Fin M) (j : Fin N) :
    matmul (DotDims.plain M K N) none (truncf .bf16 a hb) (truncf .bf16 w hb) (constant ⟨2, ![M, N]⟩ .f32 0x00000000#32) (ix2 p j)
      = ShMlp.linLayer (fun k => a (ix2 p k)) w j := by
  show FloatOps.matmul (DotDims.plain M K N) none (truncf .bf16 a hb) (truncf .bf16 w hb) (constant ⟨2, ![M, N]⟩ .f32 0x00000000#32) (ix2 p j) = _
  rw [plain_matmul_zero_apply]
  rfl

/-! ## The body's payload -/

/-- Entry (p, c) of what the body stores is the perceptron's output c on row p of the input block. -/
theorem payload_apply (w1 : Vec Ideal S32x64 .f32) (w2 : Vec Ideal S64x64 .f32) (w3 : Vec Ideal S64x3 .f32) (p : Fin 4096) (c : Fin 3) :
    k0_pay2 (F := Ideal) (k0_pay3 v0) (shBlock v0) w1 w2 w3 (ix2 p c) = ShMlp.net (ShMlp.row v0 p) w1 w2 w3 c := by
  unfold k0_pay2 ShMlp.net
  refine (lin_matmul_apply (M := 4096) (K := 64) (N := 3) _ w3 bitsLt_bf16_f32 p c).trans ?_
  refine congrArg (fun f => ShMlp.linLayer f w3 c) (funext fun k2 => ?_)
  refine (ramp_matmul_apply (M := 4096) (K := 64) (N := 64) _ w2 bitsLt_bf16_f32 p k2).trans ?_
  refine congrArg (fun f => ShMlp.rampLayer f w2 k2) (funext fun k1 => ?_)
  refine (ramp_matmul_apply (M := 4096) (K := 32) (N := 64) (encBlock v0) w1 bitsLt_bf16_f32 p k1).trans ?_
  exact congrArg (fun f => ShMlp.rampLayer f w1 k1) (funext fun q => encBlock_apply v0 p q)

end Cert.KernelIdeal.RowValue

end
-- ==== Proof.KernelValue.lean ====
/-
  From blocks to the whole array. Grid point t stages rows 4096·t … 4096·t + 4095 of the input (all nineteen columns)
  and the three weight matrices whole, and writes back rows 4096·t … 4096·t + 4095 of the output (all three columns).
  Since the perceptron works row by row, what point t writes back is block t of ONE function of the four argument
  arrays — the specification's `G` — and the 512 blocks tile the output, so the output array ends holding `G`.
-/
import proofs.«133409_j81827716923549_2_alg».proof.Proof.Gen.KernelIdeal.Value
import proofs.«133409_j81827716923549_2_alg».proof.Proof.KernelRow
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value

namespace Cert.KernelIdeal.ArrayValue

variable (m : (ℓ : Loc nD τ sig) → Buf (Elt Ideal) ℓ) (ρ : Dev nD → PrngReg)

theorem origin : (![0, 0] : Fin 2 → Nat) = fun _ => 0 := funext fun a => by fin_cases a <;> rfl

/-- The result array as the specification's function of the four arrays as the region finds them. -/
abbrev result (c : Dev nD) : S2097152x3.Idx → Elt Ideal .f32 :=
  ShMlp.G (V m c main_arg0) (V m c main_arg1) (V m c main_arg2) (V m c main_arg3)

/-- The printed index maps over the grid: the input's row block is the output's, which is the point's position; every
    other block index is zero. -/
theorem block_index : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) = t.val :=
  (by decide +kernel : ∀ t : Fin grid0.N, _)

/-- What point t writes back is block t of the specification's function of the argument arrays. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  unfold out0_4
  rw [View.canon_unit_zero origin]
  simp only [View.ld_unit_zero (S := S4096x19) origin, View.ld_unit_zero (S := S32x64) origin,
    View.ld_unit_zero (S := S64x64) origin, View.ld_unit_zero (S := S64x3) origin]
  obtain ⟨e00, e01, e10, e11, e20, e21, e30, e31, e41, e40⟩ := block_index t
  funext j
  obtain ⟨p, q, rfl⟩ : ∃ (p : Fin 4096) (q : Fin 3), j = ix2 p q := ⟨j 0, j 1, eq_ix2 j⟩
  show k0_pay2 (k0_pay3 (iblk m c 0 t)) (RowValue.shBlock (iblk m c 0 t)) (iblk m c 1 t) (iblk m c 2 t) (iblk m c 3 t) (ix2 p q)
    = result m c (((cfg0.win 4).blk t).view.emb (ix2 p q))
  refine (RowValue.payload_apply (iblk m c 0 t) (iblk m c 1 t) (iblk m c 2 t) (iblk m c 3 t) p q).trans ?_
  have hrow : ShMlp.row (iblk m c 0 t) p = ShMlp.row (V m c main_arg0) ((((cfg0.win 4).blk t).view.emb (ix2 p q)) 0) := by
    funext k
    show V m c main_arg0 (((cfg0.win 0).blk t).view.emb (ix2 p k)) = V m c main_arg0 (ix2 ((((cfg0.win 4).blk t).view.emb (ix2 p q)) 0) k)
    refine congrArg _ (funext fun a => Fin.ext ?_)
    match a with
    | ⟨0, _⟩ => show win0_0.index t (0 : Fin 2) * 4096 + 1 * p.val = win0_4.index t (0 : Fin 2) * 4096 + 1 * p.val; omega
    | ⟨1, _⟩ => show win0_0.index t (1 : Fin 2) * 19 + 1 * k.val = k.val; omega
  have h1 : (iblk m c 1 t : Vec Ideal S32x64 .f32) = V m c main_arg1 := by
    funext y
    show V m c main_arg1 (((cfg0.win 1).blk t).view.emb y) = V m c main_arg1 y
    refine congrArg _ (funext fun a => Fin.ext ?_)
    match a with
    | ⟨0, _⟩ => show win0_1.index t (0 : Fin 2) * 32 + 1 * (y 0).val = (y 0).val; omega
    | ⟨1, _⟩ => show win0_1.index t (1 : Fin 2) * 64 + 1 * (y 1).val = (y 1).val; omega
  have h2 : (iblk m c 2 t : Vec Ideal S64x64 .f32) = V m c main_arg2 := by
    funext y
    show V m c main_arg2 (((cfg0.win 2).blk t).view.emb y) = V m c main_arg2 y
    refine congrArg _ (funext fun a => Fin.ext ?_)
    match a with
    | ⟨0, _⟩ => show win0_2.index t (0 : Fin 2) * 64 + 1 * (y 0).val = (y 0).val; omega
    | ⟨1, _⟩ => show win0_2.index t (1 : Fin 2) * 64 + 1 * (y 1).val = (y 1).val; omega
  have h3 : (iblk m c 3 t : Vec Ideal S64x3 .f32) = V m c main_arg3 := by
    funext y
    show V m c main_arg3 (((cfg0.win 3).blk t).view.emb y) = V m c main_arg3 y
    refine congrArg _ (funext fun a => Fin.ext ?_)
    match a with
    | ⟨0, _⟩ => show win0_3.index t (0 : Fin 2) * 64 + 1 * (y 0).val = (y 0).val; omega
    | ⟨1, _⟩ => show win0_3.index t (1 : Fin 2) * 3 + 1 * (y 1).val = (y 1).val; omega
  have hq : q = (((cfg0.win 4).blk t).view.emb (ix2 p q)) 1 :=
    Fin.ext (by show q.val = win0_4.index t (1 : Fin 2) * 3 + 1 * q.val; omega)
  rw [hrow, h1, h2, h3]
  exact congrArg _ hq

/-- An index of the output is in point t's block iff each coordinate is in the block's range on its axis. -/
theorem mem_block (t : Fin cfg0.N) (i : S2097152x3.Idx) :
    i ∈ ((cfg0.win 4).blk t).view.set ↔ ∀ a : Fin 2, win0_4.index t a * S4096x3.size a ≤ (i a).val ∧ (i a).val < win0_4.index t a * S4096x3.size a + S4096x3.size a := by
  show i ∈ ((View.whole main_v0).slice (win0_4.rect t)).set ↔ _
  rw [View.set_slice_whole, Rect.mem_set_unit]
  exact Iff.rfl

/-- The blocks tile the output: row r is in the block of point r / 4096. -/
theorem covered (i : S2097152x3.Idx) : ∃ t : Fin cfg0.N, (cfg0.win 4).flush t = true ∧ i ∈ ((cfg0.win 4).blk t).view.set := by
  have hi0 : (i 0).val < 2097152 := (i 0).isLt
  have hi1 : (i 1).val < 3 := (i 1).isLt
  let t : Fin cfg0.N := ⟨(i 0).val / 4096, lt_of_lt_of_eq (by omega) N_0.symm⟩
  refine ⟨t, flush0_4 t, ?_⟩
  obtain ⟨-, -, -, -, -, -, -, -, e41, e40⟩ := block_index t
  have ht : t.val = (i 0).val / 4096 := rfl
  rw [mem_block]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 3 ≤ (i 1).val ∧ (i 1).val < win0_4.index t (1 : Fin 2) * 3 + 3; omega

/-- The output array after the run is the specification's function of the argument arrays. -/
theorem final (c : Dev nD) : (dats m 0 c).arrAt 4 cfg0.N = result m c :=
  (dats m 0 c).arrAt_eq_of_cover 4 (result m c) (fun t _ => flushed_eq m c t) covered

/-- The kernel's run: the result array ends at the specification's function of the arguments, which end unchanged. -/
theorem run : θ_run defs (onTc (τ := τ) (main (F := Ideal))) ⟨m, fun _ => 0, ρ⟩ fun r => ∀ c : Dev nD,
      r.2.mem ((c : Thread nD τ).loc main_v0)
        = ShMlp.G (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.ArrayValue

end
-- ==== Proof.RefRow.lean ====
/-
  The reference, read row by row: entry (r, c) of its result is the perceptron's output c on row r of the input (the
  specification's `net`). Each host operation is read at an index through the generated stage lemmas; the two
  concatenations (sixteen columns side by side, then harmonics beside features) are read by coordinates.
-/
import proofs.«133409_j81827716923549_2_alg».proof.Proof.Gen.ReferenceIdeal.Read
import proofs.«133409_j81827716923549_2_alg».proof.Proof.Spec
import proofs.«133409_j81827716923549_2_alg».proof.Proof.LibColumnReads
import proofs.«133409_j81827716923549_2_alg».proof.Proof.LibPairConcat
import Idealize.ShloMosaic.Lib.ValueIdx
import Idealize.ShloMosaic.Lib.Pipeline.Value
import Idealize.ShloMosaic.PureOps.Ideal.Laws

noncomputable section

open scoped BigOperators

open Idealize.ShloMosaic Idealize.ShloMosaic.ValueIdx
open Cert.ReferenceIdeal Cert.ReferenceIdeal.Gen Cert.ReferenceIdeal.Read
open Cert.Lib.ColumnReads Cert.Lib.PairConcat

namespace Cert.ReferenceIdeal.RowValue

variable (x0 : (⟨S2097152x19, .f32⟩ : BufTy).Contents (Elt Ideal))

/-! ## The mapped direction -/

/-- The vector X: entry r is the mapped first coordinate of row r. -/
theorem dirX (r : Fin 2097152) : val_main_v6 (F := Ideal) x0 (ix1 r) = ShMlp.dir (x0 (ix2 r 0)) := by
  rw [val_main_v6_apply, val_main_v5_apply, val_main_v4_apply, val_main_v2_apply, val_main_v0_apply, val_main_v1_apply,
    val_main_cst_apply, val_main_v3_apply, val_main_cst_0_apply]
  have e : idx_main_v0 (idx_main_v5 (idx_main_v6 (ix1 r))) = ix2 r 0 := funext fun a => Fin.ext (by
    match a with
    | ⟨0, _⟩ => exact Nat.div_one _
    | ⟨1, _⟩ => rfl)
  rw [e]; rfl

/-- The vector Y. -/
theorem dirY (r : Fin 2097152) : val_main_v8 (F := Ideal) x0 (ix1 r) = ShMlp.dir (x0 (ix2 r 1)) := by
  rw [val_main_v8_apply, val_main_v7_apply, val_main_v4_apply, val_main_v2_apply, val_main_v0_apply, val_main_v1_apply,
    val_main_cst_apply, val_main_v3_apply, val_main_cst_0_apply]
  have e : idx_main_v0 (idx_main_v7 (idx_main_v8 (ix1 r))) = ix2 r 1 := funext fun a => Fin.ext (by
    match a with
    | ⟨0, _⟩ => exact Nat.div_one _
    | ⟨1, _⟩ => rfl)
  rw [e]; rfl

/-- The vector Z. -/
theorem dirZ (r : Fin 2097152) : val_main_v10 (F := Ideal) x0 (ix1 r) = ShMlp.dir (x0 (ix2 r 2)) := by
  rw [val_main_v10_apply, val_main_v9_apply, val_main_v4_apply, val_main_v2_apply, val_main_v0_apply, val_main_v1_apply,
    val_main_cst_apply, val_main_v3_apply, val_main_cst_0_apply]
  have e : idx_main_v0 (idx_main_v9 (idx_main_v10 (ix1 r))) = ix2 r 2 := funext fun a => Fin.ext (by
    match a with
    | ⟨0, _⟩ => exact Nat.div_one _
    | ⟨1, _⟩ => rfl)
  rw [e]; rfl

/-! ## The sixteen harmonics, one column each -/

theorem col0 (r : Fin 2097152) :
    val_main_v77 (F := Ideal) (ix2 r (0 : Fin 1))
      = ShMlp.sh (val_main_v6 (F := Ideal) x0 (ix1 r)) (val_main_v8 (F := Ideal) x0 (ix1 r)) (val_main_v10 (F := Ideal) x0 (ix1 r)) ⟨0, by decide⟩ := by
  rw [val_main_v77_apply, show idx_main_v77 (ix2 r (0 : Fin 1)) = ix1 r from funext fun a => match a with | ⟨0, _⟩ => rfl]
  simp only [val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v70_apply, val_main_v71_apply, val_main_v72_apply, val_main_v73_apply, val_main_v74_apply, val_main_v75_apply, val_main_v76_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply, val_main_cst_13_apply, val_main_cst_14_apply, val_main_cst_15_apply, val_main_cst_16_apply, val_main_cst_17_apply, val_main_cst_18_apply, val_main_cst_19_apply, val_main_cst_20_apply, val_main_cst_21_apply, val_main_cst_22_apply, val_main_cst_23_apply, val_main_cst_24_apply, val_main_cst_25_apply]
  rfl

theorem col1 (r : Fin 2097152) :
    val_main_v78 (F := Ideal) x0 (ix2 r (0 : Fin 1))
      = ShMlp.sh (val_main_v6 (F := Ideal) x0 (ix1 r)) (val_main_v8 (F := Ideal) x0 (ix1 r)) (val_main_v10 (F := Ideal) x0 (ix1 r)) ⟨1, by decide⟩ := by
  rw [val_main_v78_apply, show idx_main_v78 (ix2 r (0 : Fin 1)) = ix1 r from funext fun a => match a with | ⟨0, _⟩ => rfl]
  simp only [val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v70_apply, val_main_v71_apply, val_main_v72_apply, val_main_v73_apply, val_main_v74_apply, val_main_v75_apply, val_main_v76_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply, val_main_cst_13_apply, val_main_cst_14_apply, val_main_cst_15_apply, val_main_cst_16_apply, val_main_cst_17_apply, val_main_cst_18_apply, val_main_cst_19_apply, val_main_cst_20_apply, val_main_cst_21_apply, val_main_cst_22_apply, val_main_cst_23_apply, val_main_cst_24_apply, val_main_cst_25_apply]
  rfl

theorem col2 (r : Fin 2097152) :
    val_main_v79 (F := Ideal) x0 (ix2 r (0 : Fin 1))
      = ShMlp.sh (val_main_v6 (F := Ideal) x0 (ix1 r)) (val_main_v8 (F := Ideal) x0 (ix1 r)) (val_main_v10 (F := Ideal) x0 (ix1 r)) ⟨2, by decide⟩ := by
  rw [val_main_v79_apply, show idx_main_v79 (ix2 r (0 : Fin 1)) = ix1 r from funext fun a => match a with | ⟨0, _⟩ => rfl]
  simp only [val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v70_apply, val_main_v71_apply, val_main_v72_apply, val_main_v73_apply, val_main_v74_apply, val_main_v75_apply, val_main_v76_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply, val_main_cst_13_apply, val_main_cst_14_apply, val_main_cst_15_apply, val_main_cst_16_apply, val_main_cst_17_apply, val_main_cst_18_apply, val_main_cst_19_apply, val_main_cst_20_apply, val_main_cst_21_apply, val_main_cst_22_apply, val_main_cst_23_apply, val_main_cst_24_apply, val_main_cst_25_apply]
  rfl

theorem col3 (r : Fin 2097152) :
    val_main_v80 (F := Ideal) x0 (ix2 r (0 : Fin 1))
      = ShMlp.sh (val_main_v6 (F := Ideal) x0 (ix1 r)) (val_main_v8 (F := Ideal) x0 (ix1 r)) (val_main_v10 (F := Ideal) x0 (ix1 r)) ⟨3, by decide⟩ := by
  rw [val_main_v80_apply, show idx_main_v80 (ix2 r (0 : Fin 1)) = ix1 r from funext fun a => match a with | ⟨0, _⟩ => rfl]
  simp only [val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v70_apply, val_main_v71_apply, val_main_v72_apply, val_main_v73_apply, val_main_v74_apply, val_main_v75_apply, val_main_v76_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply, val_main_cst_13_apply, val_main_cst_14_apply, val_main_cst_15_apply, val_main_cst_16_apply, val_main_cst_17_apply, val_main_cst_18_apply, val_main_cst_19_apply, val_main_cst_20_apply, val_main_cst_21_apply, val_main_cst_22_apply, val_main_cst_23_apply, val_main_cst_24_apply, val_main_cst_25_apply]
  rfl

theorem col4 (r : Fin 2097152) :
    val_main_v81 (F := Ideal) x0 (ix2 r (0 : Fin 1))
      = ShMlp.sh (val_main_v6 (F := Ideal) x0 (ix1 r)) (val_main_v8 (F := Ideal) x0 (ix1 r)) (val_main_v10 (F := Ideal) x0 (ix1 r)) ⟨4, by decide⟩ := by
  rw [val_main_v81_apply, show idx_main_v81 (ix2 r (0 : Fin 1)) = ix1 r from funext fun a => match a with | ⟨0, _⟩ => rfl]
  simp only [val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v70_apply, val_main_v71_apply, val_main_v72_apply, val_main_v73_apply, val_main_v74_apply, val_main_v75_apply, val_main_v76_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply, val_main_cst_13_apply, val_main_cst_14_apply, val_main_cst_15_apply, val_main_cst_16_apply, val_main_cst_17_apply, val_main_cst_18_apply, val_main_cst_19_apply, val_main_cst_20_apply, val_main_cst_21_apply, val_main_cst_22_apply, val_main_cst_23_apply, val_main_cst_24_apply, val_main_cst_25_apply]
  rfl

theorem col5 (r : Fin 2097152) :
    val_main_v82 (F := Ideal) x0 (ix2 r (0 : Fin 1))
      = ShMlp.sh (val_main_v6 (F := Ideal) x0 (ix1 r)) (val_main_v8 (F := Ideal) x0 (ix1 r)) (val_main_v10 (F := Ideal) x0 (ix1 r)) ⟨5, by decide⟩ := by
  rw [val_main_v82_apply, show idx_main_v82 (ix2 r (0 : Fin 1)) = ix1 r from funext fun a => match a with | ⟨0, _⟩ => rfl]
  simp only [val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v70_apply, val_main_v71_apply, val_main_v72_apply, val_main_v73_apply, val_main_v74_apply, val_main_v75_apply, val_main_v76_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply, val_main_cst_13_apply, val_main_cst_14_apply, val_main_cst_15_apply, val_main_cst_16_apply, val_main_cst_17_apply, val_main_cst_18_apply, val_main_cst_19_apply, val_main_cst_20_apply, val_main_cst_21_apply, val_main_cst_22_apply, val_main_cst_23_apply, val_main_cst_24_apply, val_main_cst_25_apply]
  rfl

theorem col6 (r : Fin 2097152) :
    val_main_v83 (F := Ideal) x0 (ix2 r (0 : Fin 1))
      = ShMlp.sh (val_main_v6 (F := Ideal) x0 (ix1 r)) (val_main_v8 (F := Ideal) x0 (ix1 r)) (val_main_v10 (F := Ideal) x0 (ix1 r)) ⟨6, by decide⟩ := by
  rw [val_main_v83_apply, show idx_main_v83 (ix2 r (0 : Fin 1)) = ix1 r from funext fun a => match a with | ⟨0, _⟩ => rfl]
  simp only [val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v70_apply, val_main_v71_apply, val_main_v72_apply, val_main_v73_apply, val_main_v74_apply, val_main_v75_apply, val_main_v76_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply, val_main_cst_13_apply, val_main_cst_14_apply, val_main_cst_15_apply, val_main_cst_16_apply, val_main_cst_17_apply, val_main_cst_18_apply, val_main_cst_19_apply, val_main_cst_20_apply, val_main_cst_21_apply, val_main_cst_22_apply, val_main_cst_23_apply, val_main_cst_24_apply, val_main_cst_25_apply]
  rfl

theorem col7 (r : Fin 2097152) :
    val_main_v84 (F := Ideal) x0 (ix2 r (0 : Fin 1))
      = ShMlp.sh (val_main_v6 (F := Ideal) x0 (ix1 r)) (val_main_v8 (F := Ideal) x0 (ix1 r)) (val_main_v10 (F := Ideal) x0 (ix1 r)) ⟨7, by decide⟩ := by
  rw [val_main_v84_apply, show idx_main_v84 (ix2 r (0 : Fin 1)) = ix1 r from funext fun a => match a with | ⟨0, _⟩ => rfl]
  simp only [val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v70_apply, val_main_v71_apply, val_main_v72_apply, val_main_v73_apply, val_main_v74_apply, val_main_v75_apply, val_main_v76_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply, val_main_cst_13_apply, val_main_cst_14_apply, val_main_cst_15_apply, val_main_cst_16_apply, val_main_cst_17_apply, val_main_cst_18_apply, val_main_cst_19_apply, val_main_cst_20_apply, val_main_cst_21_apply, val_main_cst_22_apply, val_main_cst_23_apply, val_main_cst_24_apply, val_main_cst_25_apply]
  rfl

theorem col8 (r : Fin 2097152) :
    val_main_v85 (F := Ideal) x0 (ix2 r (0 : Fin 1))
      = ShMlp.sh (val_main_v6 (F := Ideal) x0 (ix1 r)) (val_main_v8 (F := Ideal) x0 (ix1 r)) (val_main_v10 (F := Ideal) x0 (ix1 r)) ⟨8, by decide⟩ := by
  rw [val_main_v85_apply, show idx_main_v85 (ix2 r (0 : Fin 1)) = ix1 r from funext fun a => match a with | ⟨0, _⟩ => rfl]
  simp only [val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v70_apply, val_main_v71_apply, val_main_v72_apply, val_main_v73_apply, val_main_v74_apply, val_main_v75_apply, val_main_v76_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply, val_main_cst_13_apply, val_main_cst_14_apply, val_main_cst_15_apply, val_main_cst_16_apply, val_main_cst_17_apply, val_main_cst_18_apply, val_main_cst_19_apply, val_main_cst_20_apply, val_main_cst_21_apply, val_main_cst_22_apply, val_main_cst_23_apply, val_main_cst_24_apply, val_main_cst_25_apply]
  rfl

theorem col9 (r : Fin 2097152) :
    val_main_v86 (F := Ideal) x0 (ix2 r (0 : Fin 1))
      = ShMlp.sh (val_main_v6 (F := Ideal) x0 (ix1 r)) (val_main_v8 (F := Ideal) x0 (ix1 r)) (val_main_v10 (F := Ideal) x0 (ix1 r)) ⟨9, by decide⟩ := by
  rw [val_main_v86_apply, show idx_main_v86 (ix2 r (0 : Fin 1)) = ix1 r from funext fun a => match a with | ⟨0, _⟩ => rfl]
  simp only [val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v70_apply, val_main_v71_apply, val_main_v72_apply, val_main_v73_apply, val_main_v74_apply, val_main_v75_apply, val_main_v76_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply, val_main_cst_13_apply, val_main_cst_14_apply, val_main_cst_15_apply, val_main_cst_16_apply, val_main_cst_17_apply, val_main_cst_18_apply, val_main_cst_19_apply, val_main_cst_20_apply, val_main_cst_21_apply, val_main_cst_22_apply, val_main_cst_23_apply, val_main_cst_24_apply, val_main_cst_25_apply]
  rfl

theorem col10 (r : Fin 2097152) :
    val_main_v87 (F := Ideal) x0 (ix2 r (0 : Fin 1))
      = ShMlp.sh (val_main_v6 (F := Ideal) x0 (ix1 r)) (val_main_v8 (F := Ideal) x0 (ix1 r)) (val_main_v10 (F := Ideal) x0 (ix1 r)) ⟨10, by decide⟩ := by
  rw [val_main_v87_apply, show idx_main_v87 (ix2 r (0 : Fin 1)) = ix1 r from funext fun a => match a with | ⟨0, _⟩ => rfl]
  simp only [val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v70_apply, val_main_v71_apply, val_main_v72_apply, val_main_v73_apply, val_main_v74_apply, val_main_v75_apply, val_main_v76_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply, val_main_cst_13_apply, val_main_cst_14_apply, val_main_cst_15_apply, val_main_cst_16_apply, val_main_cst_17_apply, val_main_cst_18_apply, val_main_cst_19_apply, val_main_cst_20_apply, val_main_cst_21_apply, val_main_cst_22_apply, val_main_cst_23_apply, val_main_cst_24_apply, val_main_cst_25_apply]
  rfl

theorem col11 (r : Fin 2097152) :
    val_main_v88 (F := Ideal) x0 (ix2 r (0 : Fin 1))
      = ShMlp.sh (val_main_v6 (F := Ideal) x0 (ix1 r)) (val_main_v8 (F := Ideal) x0 (ix1 r)) (val_main_v10 (F := Ideal) x0 (ix1 r)) ⟨11, by decide⟩ := by
  rw [val_main_v88_apply, show idx_main_v88 (ix2 r (0 : Fin 1)) = ix1 r from funext fun a => match a with | ⟨0, _⟩ => rfl]
  simp only [val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v70_apply, val_main_v71_apply, val_main_v72_apply, val_main_v73_apply, val_main_v74_apply, val_main_v75_apply, val_main_v76_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply, val_main_cst_13_apply, val_main_cst_14_apply, val_main_cst_15_apply, val_main_cst_16_apply, val_main_cst_17_apply, val_main_cst_18_apply, val_main_cst_19_apply, val_main_cst_20_apply, val_main_cst_21_apply, val_main_cst_22_apply, val_main_cst_23_apply, val_main_cst_24_apply, val_main_cst_25_apply]
  rfl

theorem col12 (r : Fin 2097152) :
    val_main_v89 (F := Ideal) x0 (ix2 r (0 : Fin 1))
      = ShMlp.sh (val_main_v6 (F := Ideal) x0 (ix1 r)) (val_main_v8 (F := Ideal) x0 (ix1 r)) (val_main_v10 (F := Ideal) x0 (ix1 r)) ⟨12, by decide⟩ := by
  rw [val_main_v89_apply, show idx_main_v89 (ix2 r (0 : Fin 1)) = ix1 r from funext fun a => match a with | ⟨0, _⟩ => rfl]
  simp only [val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v70_apply, val_main_v71_apply, val_main_v72_apply, val_main_v73_apply, val_main_v74_apply, val_main_v75_apply, val_main_v76_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply, val_main_cst_13_apply, val_main_cst_14_apply, val_main_cst_15_apply, val_main_cst_16_apply, val_main_cst_17_apply, val_main_cst_18_apply, val_main_cst_19_apply, val_main_cst_20_apply, val_main_cst_21_apply, val_main_cst_22_apply, val_main_cst_23_apply, val_main_cst_24_apply, val_main_cst_25_apply]
  rfl

theorem col13 (r : Fin 2097152) :
    val_main_v90 (F := Ideal) x0 (ix2 r (0 : Fin 1))
      = ShMlp.sh (val_main_v6 (F := Ideal) x0 (ix1 r)) (val_main_v8 (F := Ideal) x0 (ix1 r)) (val_main_v10 (F := Ideal) x0 (ix1 r)) ⟨13, by decide⟩ := by
  rw [val_main_v90_apply, show idx_main_v90 (ix2 r (0 : Fin 1)) = ix1 r from funext fun a => match a with | ⟨0, _⟩ => rfl]
  simp only [val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v70_apply, val_main_v71_apply, val_main_v72_apply, val_main_v73_apply, val_main_v74_apply, val_main_v75_apply, val_main_v76_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply, val_main_cst_13_apply, val_main_cst_14_apply, val_main_cst_15_apply, val_main_cst_16_apply, val_main_cst_17_apply, val_main_cst_18_apply, val_main_cst_19_apply, val_main_cst_20_apply, val_main_cst_21_apply, val_main_cst_22_apply, val_main_cst_23_apply, val_main_cst_24_apply, val_main_cst_25_apply]
  rfl

theorem col14 (r : Fin 2097152) :
    val_main_v91 (F := Ideal) x0 (ix2 r (0 : Fin 1))
      = ShMlp.sh (val_main_v6 (F := Ideal) x0 (ix1 r)) (val_main_v8 (F := Ideal) x0 (ix1 r)) (val_main_v10 (F := Ideal) x0 (ix1 r)) ⟨14, by decide⟩ := by
  rw [val_main_v91_apply, show idx_main_v91 (ix2 r (0 : Fin 1)) = ix1 r from funext fun a => match a with | ⟨0, _⟩ => rfl]
  simp only [val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v70_apply, val_main_v71_apply, val_main_v72_apply, val_main_v73_apply, val_main_v74_apply, val_main_v75_apply, val_main_v76_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply, val_main_cst_13_apply, val_main_cst_14_apply, val_main_cst_15_apply, val_main_cst_16_apply, val_main_cst_17_apply, val_main_cst_18_apply, val_main_cst_19_apply, val_main_cst_20_apply, val_main_cst_21_apply, val_main_cst_22_apply, val_main_cst_23_apply, val_main_cst_24_apply, val_main_cst_25_apply]
  rfl

theorem col15 (r : Fin 2097152) :
    val_main_v92 (F := Ideal) x0 (ix2 r (0 : Fin 1))
      = ShMlp.sh (val_main_v6 (F := Ideal) x0 (ix1 r)) (val_main_v8 (F := Ideal) x0 (ix1 r)) (val_main_v10 (F := Ideal) x0 (ix1 r)) ⟨15, by decide⟩ := by
  rw [val_main_v92_apply, show idx_main_v92 (ix2 r (0 : Fin 1)) = ix1 r from funext fun a => match a with | ⟨0, _⟩ => rfl]
  simp only [val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_v48_apply, val_main_v49_apply, val_main_v50_apply, val_main_v51_apply, val_main_v52_apply, val_main_v53_apply, val_main_v54_apply, val_main_v55_apply, val_main_v56_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v70_apply, val_main_v71_apply, val_main_v72_apply, val_main_v73_apply, val_main_v74_apply, val_main_v75_apply, val_main_v76_apply, val_main_cst_1_apply, val_main_cst_2_apply, val_main_cst_3_apply, val_main_cst_4_apply, val_main_cst_5_apply, val_main_cst_6_apply, val_main_cst_7_apply, val_main_cst_8_apply, val_main_cst_9_apply, val_main_cst_10_apply, val_main_cst_11_apply, val_main_cst_12_apply, val_main_cst_13_apply, val_main_cst_14_apply, val_main_cst_15_apply, val_main_cst_16_apply, val_main_cst_17_apply, val_main_cst_18_apply, val_main_cst_19_apply, val_main_cst_20_apply, val_main_cst_21_apply, val_main_cst_22_apply, val_main_cst_23_apply, val_main_cst_24_apply, val_main_cst_25_apply]
  rfl

/-! ## The encoded rows -/

/-- The sixteen columns the reference lays side by side. -/
abbrev shCols : Fin 16 → (S2097152x1.Idx → Ideal .f32) :=
  ![val_main_v77 (F := Ideal),
    val_main_v78 (F := Ideal) x0,
    val_main_v79 (F := Ideal) x0,
    val_main_v80 (F := Ideal) x0,
    val_main_v81 (F := Ideal) x0,
    val_main_v82 (F := Ideal) x0,
    val_main_v83 (F := Ideal) x0,
    val_main_v84 (F := Ideal) x0,
    val_main_v85 (F := Ideal) x0,
    val_main_v86 (F := Ideal) x0,
    val_main_v87 (F := Ideal) x0,
    val_main_v88 (F := Ideal) x0,
    val_main_v89 (F := Ideal) x0,
    val_main_v90 (F := Ideal) x0,
    val_main_v91 (F := Ideal) x0,
    val_main_v92 (F := Ideal) x0]

/-- Entry (r, n) of the matrix of harmonics is harmonic n at the mapped direction of row r. -/
theorem harmonics_apply (r : Fin 2097152) (n : Fin 16) :
    val_main_v93 (F := Ideal) x0 (ix2 r n)
      = ShMlp.sh (ShMlp.dir (x0 (ix2 r 0))) (ShMlp.dir (x0 (ix2 r 1))) (ShMlp.dir (x0 (ix2 r 2))) n := by
  rw [← dirX x0 r, ← dirY x0 r, ← dirZ x0 r]
  refine Eq.trans (b := shCols x0 n (ix2 r (0 : Fin 1))) ?_ ?_
  · exact concat_columns_apply (shCols x0) concatenates_S2097152x1_S2097152x1_S2097152x1_S2097152x1_S2097152x1_S2097152x1_S2097152x1_S2097152x1_S2097152x1_S2097152x1_S2097152x1_S2097152x1_S2097152x1_S2097152x1_S2097152x1_S2097152x1_S2097152x16_d1 r n
  · fin_cases n
    · exact col0 x0 r
    · exact col1 x0 r
    · exact col2 x0 r
    · exact col3 x0 r
    · exact col4 x0 r
    · exact col5 x0 r
    · exact col6 x0 r
    · exact col7 x0 r
    · exact col8 x0 r
    · exact col9 x0 r
    · exact col10 x0 r
    · exact col11 x0 r
    · exact col12 x0 r
    · exact col13 x0 r
    · exact col14 x0 r
    · exact col15 x0 r

/-- The pass-through features: columns 3 … 18 of the input. -/
theorem features_apply (r : Fin 2097152) (c : Fin 16) :
    val_main_v94 (F := Ideal) x0 (ix2 r c) = x0 (ix2 r ⟨3 + c.val, by have := c.isLt; omega⟩) := by
  rw [val_main_v94_apply]
  exact congrArg x0 (funext fun a => match a with | ⟨0, _⟩ => rfl | ⟨1, _⟩ => rfl)

/-- Entry (r, q) of the encoded matrix is entry q of the encoding of row r. -/
theorem encoded_apply (r : Fin 2097152) (q : Fin 32) :
    val_main_v95 (F := Ideal) x0 (ix2 r q) = ShMlp.enc (ShMlp.row x0 r) q := by
  unfold ShMlp.enc val_main_v95
  by_cases h : q.val < 16
  · rw [dif_pos h]
    exact (concat_axis1_left (val_main_v93 (F := Ideal) x0) (val_main_v94 (F := Ideal) x0) concatenates_S2097152x16_S2097152x16_S2097152x32_d1 r q h).trans
      (harmonics_apply x0 r ⟨q.val, h⟩)
  · rw [dif_neg h]
    have h16 : 16 ≤ q.val := by omega
    have hq : q.val - 16 < 16 := by have := q.isLt; omega
    exact (concat_axis1_right (val_main_v93 (F := Ideal) x0) (val_main_v94 (F := Ideal) x0) concatenates_S2097152x16_S2097152x16_S2097152x32_d1 r q h16 hq).trans
      (features_apply x0 r ⟨q.val - 16, hq⟩)

/-! ## The layers -/

variable (x1 : (⟨S32x64, .f32⟩ : BufTy).Contents (Elt Ideal)) (x2 : (⟨S64x64, .f32⟩ : BufTy).Contents (Elt Ideal))
  (x3 : (⟨S64x3, .f32⟩ : BufTy).Contents (Elt Ideal))

/-- The first hidden layer: entry (r, j) is the ramp layer of the encoded row r. -/
theorem hidden1_apply (r : Fin 2097152) (j : Fin 64) :
    val_main_v97 (F := Ideal) x0 x1 (ix2 r j) = ShMlp.rampLayer (ShMlp.enc (ShMlp.row x0 r)) x1 j := by
  rw [val_main_v97_apply, val_main_v96_apply, val_main_call0_v0_apply, val_main_call0_cst_apply]
  unfold ShMlp.rampLayer
  refine congrArg (fun s => max s _) (Finset.sum_congr rfl fun k _ => ?_)
  rw [show lidx_main_v96 (ix2 r j) k = ix2 r k from funext fun a => match a with | ⟨0, _⟩ => rfl | ⟨1, _⟩ => rfl,
    show ridx_main_v96 (ix2 r j) k = ix2 k j from funext fun a => match a with | ⟨0, _⟩ => rfl | ⟨1, _⟩ => rfl,
    encoded_apply]

/-- The second hidden layer. -/
theorem hidden2_apply (r : Fin 2097152) (j : Fin 64) :
    val_main_v99 (F := Ideal) x0 x1 x2 (ix2 r j)
      = ShMlp.rampLayer (ShMlp.rampLayer (ShMlp.enc (ShMlp.row x0 r)) x1) x2 j := by
  rw [val_main_v99_apply, val_main_v98_apply, val_main_call1_v0_apply, val_main_call1_cst_apply]
  unfold ShMlp.rampLayer
  refine congrArg (fun s => max s _) (Finset.sum_congr rfl fun k _ => ?_)
  rw [show lidx_main_v98 (ix2 r j) k = ix2 r k from funext fun a => match a with | ⟨0, _⟩ => rfl | ⟨1, _⟩ => rfl,
    show ridx_main_v98 (ix2 r j) k = ix2 k j from funext fun a => match a with | ⟨0, _⟩ => rfl | ⟨1, _⟩ => rfl,
    hidden1_apply]
  rfl

/-- The reference's result is the specification's function of its four arguments. -/
theorem result_eq : val_main_v100 (F := Ideal) x0 x1 x2 x3 = ShMlp.G x0 x1 x2 x3 := by
  funext i
  obtain ⟨r, c, rfl⟩ : ∃ (r : Fin 2097152) (c : Fin 3), i = ix2 r c := ⟨i 0, i 1, eq_ix2 i⟩
  rw [val_main_v100_apply, ShMlp.G_apply]
  unfold ShMlp.net ShMlp.linLayer
  refine Finset.sum_congr rfl fun k _ => ?_
  rw [show lidx_main_v100 (ix2 r c) k = ix2 r k from funext fun a => match a with | ⟨0, _⟩ => rfl | ⟨1, _⟩ => rfl,
    show ridx_main_v100 (ix2 r c) k = ix2 k c from funext fun a => match a with | ⟨0, _⟩ => rfl | ⟨1, _⟩ => rfl,
    hidden2_apply]

end Cert.ReferenceIdeal.RowValue

end
-- ==== Proof.lean ====
/-
  A bias-free perceptron on spherical-harmonic encodings, tiled over rows, against the same function written with
  jnp on whole arrays.

  Both programs take x : f32[2097152, 19] and weights W1 : [32, 64], W2 : [64, 64], W3 : [64, 3]. Row by row, the
  first three entries of x are mapped to a direction (X, Y, Z) = 2·d − 1, the sixteen real spherical harmonics of
  degree below four are evaluated there, the other sixteen entries are appended, and the thirty-two numbers go through
  max(· W1, 0), max(· W2, 0) and · W3. The kernel does this on blocks of 4096 rows, the weights resident, with the
  products taken on bf16 copies of the operands; the reference does it on the whole arrays. On the extended reals a
  change of float format is the identity, the two programs spell the harmonics with the same f32 coefficients in the
  same association, and a product into the zero accumulator and the host's contraction are the same finite sum. So both
  results are ONE function of the four arguments, the specification's `ShMlp.G` (Proof/Spec.lean): entry (r, c) is
  the perceptron's output c on row r. No law of arithmetic beyond re-indexing a finite sum is used, so finiteness of the
  inputs is never needed.

  The modules: Proof/Spec.lean states the function; Proof/KernelRow.lean reads the body's stored value at an entry of
  the block; Proof/KernelValue.lean goes from the 512 blocks to the whole output array; Proof/RefRow.lean reads the
  reference's result at an entry. The frames of the two kernel programs and the run of the reference are the generated
  ones; the idealization rewrote nothing, so there is nothing to preserve.
-/
import proofs.«133409_j81827716923549_2_alg».proof.Defs
import proofs.«133409_j81827716923549_2_alg».proof.Proof.Gen.Kernel
import proofs.«133409_j81827716923549_2_alg».proof.Proof.Gen.Kernel.Skeleton
import proofs.«133409_j81827716923549_2_alg».proof.Proof.Gen.Kernel.Launch
import proofs.«133409_j81827716923549_2_alg».proof.Proof.Gen.Kernel.Points
import proofs.«133409_j81827716923549_2_alg».proof.Proof.Gen.Kernel.Frame
import proofs.«133409_j81827716923549_2_alg».proof.Proof.Gen.KernelIdeal
import proofs.«133409_j81827716923549_2_alg».proof.Proof.Gen.KernelIdeal.Skeleton
import proofs.«133409_j81827716923549_2_alg».proof.Proof.Gen.KernelIdeal.Launch
import proofs.«133409_j81827716923549_2_alg».proof.Proof.Gen.KernelIdeal.Points
import proofs.«133409_j81827716923549_2_alg».proof.Proof.Gen.KernelIdeal.Frame
import proofs.«133409_j81827716923549_2_alg».proof.Proof.Gen.ReferenceIdeal
import proofs.«133409_j81827716923549_2_alg».proof.Proof.Gen.Pre_finite_inputs
import proofs.«133409_j81827716923549_2_alg».proof.Proof.Gen.KernelIdeal.Value
import proofs.«133409_j81827716923549_2_alg».proof.Proof.Gen.ReferenceIdeal.Run
import proofs.«133409_j81827716923549_2_alg».proof.Proof.Gen.ReferenceIdeal.Read
import proofs.«133409_j81827716923549_2_alg».proof.Proof.KernelValue
import proofs.«133409_j81827716923549_2_alg».proof.Proof.RefRow
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments both programs end with the result array at the perceptron's output,
    row by row, of those arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v100_eq, Cert.ReferenceIdeal.RowValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
